-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S128x64 : Shape := ⟨2, ![128, 64]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S128x64 .f32) (main_arg7 : FVec F S1x64 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S1x128 .f32) (main_arg6 : FVec F S128x64 .f32) (main_arg7 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S128x64 : Shape := ⟨2, ![128, 64]⟩
abbrev S1x64 : Shape := ⟨2, ![1, 64]⟩
abbrev S_ : Shape := ⟨0, ![]⟩
abbrev S1600000x1 : Shape := ⟨2, ![1600000, 1]⟩
abbrev S1600000x128 : Shape := ⟨2, ![1600000, 128]⟩
abbrev S10000x128 : Shape := ⟨2, ![10000, 128]⟩
abbrev S10000x1 : Shape := ⟨2, ![10000, 1]⟩
abbrev S5000x128 : Shape := ⟨2, ![5000, 128]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 40
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S1x128, .f32⟩
  | .hbm, ⟨6, _⟩ => ⟨S128x64, .f32⟩
  | .hbm, ⟨7, _⟩ => ⟨S1x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x1, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S10000x128, .f32⟩
  | .local _ .vmem, ⟨13, _⟩ => ⟨S10000x128, .f32⟩
  | .local _ .vmem, ⟨14, _⟩ => ⟨S10000x1, .f32⟩
  | .local _ .vmem, ⟨15, _⟩ => ⟨S10000x1, .f32⟩
  | .local _ .vmem, ⟨16, _⟩ => ⟨S10000x128, .f32⟩
  | .local _ .vmem, ⟨17, _⟩ => ⟨S10000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1600000x128.size a
  hwx0_0 : ∀ i : grid0.Coords, EltTy.bits .f32 = 32 ∨ (Rect.block (s := S1600000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1600000x1.size a
  hwx0_1 : ∀ i : grid0.Coords, EltTy.bits .f32 = 32 ∨ (Rect.block (s := S1600000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1600000x128.size a
  hwx0_2 : ∀ i : grid0.Coords, EltTy.bits .f32 = 32 ∨ (Rect.block (s := S1600000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1600000x1.size a
  hwx2_1 : ∀ i : grid2.Coords, EltTy.bits .f32 = 32 ∨ (Rect.block (s := S1600000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S1600000x128.size a
  hwx2_2 : ∀ i : grid2.Coords, EltTy.bits .f32 = 32 ∨ (Rect.block (s := S1600000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1x128 : Shape := ⟨2, ![1, 128]⟩
abbrev S128x64 : Shape := ⟨2, ![128, 64]⟩
abbrev S1x64 : Shape := ⟨2, ![1, 64]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S100000 : Shape := ⟨1, ![100000]⟩
abbrev S100000x1 : Shape := ⟨2, ![100000, 1]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S1x128, .f32⟩
  | .hbm, ⟨6, _⟩ => ⟨S128x64, .f32⟩
  | .hbm, ⟨7, _⟩ => ⟨S1x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x1, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S100000x1, .f32⟩
  | .hbm, ⟨61, _⟩ => ⟨S100000x1, .f32⟩
  | .hbm, ⟨62, _⟩ => ⟨S100000x64, .f32⟩
  | .hbm, ⟨63, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v33 : Ref sig .tc := ⟨.hbm, 63, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The tiled program's run with its result named: every weakly fair execution of the four regions and the host operations
  between them terminates, and the result buffer ends at what the last region's write-backs leave of it — the last
  boundary's contents read at the result — with the arguments unchanged.  The run is the one that shows the arguments
  unchanged; here the final state is read at one more buffer.
-/
import proofs.«119716_j75917841924646_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read in the final state beside the arguments. -/
theorem run_value : θ_run defs (onTc (τ := τ) (main (F := F))) ⟨m, fun _ => 0, ρ⟩ (fun r => ∀ c : Dev nD,
      r.2.mem ((c.tc : Thread nD τ).loc main_v25) = W8 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v25 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.Stages.lean ====
/-
  The four dense stages of a two-layer graph convolution, each as ONE function of whole arrays over the extended reals.

  A layer aggregates and then transforms.  Aggregation: every edge e carries the row of its source node scaled by the
  edge's weight, msg[e, :] = h[src e, :] · w[e], and every node sums the messages of the edges that end in it.  The first
  transform is relu(a · W0 + b0), the second the row-wise log-softmax of a · W1 + b1: with y the logits of a row and M
  their maximum, y − M − log Σ_j exp(y_j − M).  The functions below are written with the host's own operations, so that
  the reference's result is their composition by definition; the tiled kernels are shown to compute the same functions.
-/
import proofs.«119716_j75917841924646_1_alg».proof.Proof.Gen.ReferenceIdeal
import Idealize.ShloMosaic.PureOps.Ideal

noncomputable section

namespace Cert.Stages

open Cert.ReferenceIdeal Cert.ReferenceIdeal.Gen Idealize.ShloMosaic Idealize.ShloMosaic.TcCoe Idealize.SL.Sem

/-- Source indices as the gather takes them: a negative index counts from the end, and the vector becomes a column. -/
def srcColumn (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The rows of the source nodes, one per edge. -/
def gathered (h : FVec Ideal S100000x128 .f32) (src : IVec S1600000 32) :
    FVec Ideal S1600000x128 .f32 :=
  Host.gather gather_S100000x128_S1600000x1_S1600000x128_1_0_n_n_0_1_1128 h (srcColumn src)

/-- The edge weights as a column. -/
def weightColumn (w : FVec Ideal S1600000 .f32) : FVec Ideal S1600000x1 .f32 :=
  broadcastInDim S1600000x1 ![0] bcast_S1600000_S1600000x1_0 w

/-- Each gathered row scaled by its edge's weight: entry (e, d) is g[e, d] · w[e, 0]. -/
def weighted (g : FVec Ideal S1600000x128 .f32) (wc : FVec Ideal S1600000x1 .f32) :
    FVec Ideal S1600000x128 .f32 :=
  mulf g (broadcastInDim S1600000x128 ![0, 1] bcast_S1600000x1_S1600000x128_0_1 wc)

/-- The messages summed into their destination nodes, from zero. -/
def summed (dst : IVec S1600000 32) (msgs : FVec Ideal S1600000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) msgs

/-- The first transform: relu (a · W + b), entry (n, f) = max (Σ_k a[n, k] · W[k, f] + b[0, f]) 0. -/
def hidden (a : FVec Ideal S100000x128 .f32) (W : FVec Ideal S128x128 .f32)
    (b : FVec Ideal S1x128 .f32) : FVec Ideal S100000x128 .f32 :=
  maximumf (addf (Host.dotGeneral dot_S100000x128_S128x128_S100000x128_1_0_0_1_n_n none a W)
      (broadcastInDim S100000x128 ![0, 1] bcast_S1x128_S100000x128_0_1 b))
    (broadcastInDim S100000x128 ![] bcast_S_S100000x128 (constant (F := Ideal) S_ .f32 0x00000000#32))

/-- The logits of the second transform: a · W + b. -/
def logits (a : FVec Ideal S100000x128 .f32) (W : FVec Ideal S128x64 .f32)
    (b : FVec Ideal S1x64 .f32) : FVec Ideal S100000x64 .f32 :=
  addf (Host.dotGeneral dot_S100000x128_S128x64_S100000x64_1_0_0_1_n_n none a W)
    (broadcastInDim S100000x64 ![0, 1] bcast_S1x64_S100000x64_0_1 b)

/-- Each row's maximum, from −∞. -/
def rowMax (y : FVec Ideal S100000x64 .f32) : FVec Ideal S100000 .f32 :=
  Host.reduce (s := S100000x64) (FloatOps.maximumf (F := Ideal) (φ := .f32)) y (constant (F := Ideal) S_ .f32 0xFF800000#32)
    reducesTo_S100000x64_S100000_d1 h_S_

/-- Each row less a number per row, the number first raised to at least −∞ (which changes nothing). -/
def lessPerRow (y : FVec Ideal S100000x64 .f32) (mx : FVec Ideal S100000 .f32) : FVec Ideal S100000x64 .f32 :=
  subf y (broadcastInDim S100000x64 ![0, 1] bcast_S100000x1_S100000x64_0_1
    (broadcastInDim S100000x1 ![0] bcast_S100000_S100000x1_0
      (maximumf (broadcastInDim S100000 ![] bcast_S_S100000 (constant (F := Ideal) S_ .f32 0xFF800000#32)) mx)))

/-- Each row's logits less the row's maximum. -/
def shifted (y : FVec Ideal S100000x64 .f32) : FVec Ideal S100000x64 .f32 :=
  lessPerRow y (rowMax y)

/-- Each row less the logarithm of the row's sum of exponentials. -/
def normalized (s : FVec Ideal S100000x64 .f32) : FVec Ideal S100000x64 .f32 :=
  subf s (broadcastInDim S100000x64 ![0, 1] bcast_S100000x1_S100000x64_0_1
    (Host.log (broadcastInDim S100000x1 ![0] bcast_S100000_S100000x1_0
      (Host.reduceAdd (Host.exp s) (constant (F := Ideal) S_ .f32 0x00000000#32) reducesTo_S100000x64_S100000_d1 h_S_))))

/-- The row-wise log-softmax: the shifted logits less the logarithm of the row's sum of their exponentials. -/
def logSoftmax (y : FVec Ideal S100000x64 .f32) : FVec Ideal S100000x64 .f32 :=
  normalized (shifted y)

/-- The second transform. -/
def classes (a : FVec Ideal S100000x128 .f32) (W : FVec Ideal S128x64 .f32)
    (b : FVec Ideal S1x64 .f32) : FVec Ideal S100000x64 .f32 :=
  logSoftmax (logits a W b)

/-- One aggregation: gather, weight, sum. -/
def aggregated (h : FVec Ideal S100000x128 .f32) (src dst : IVec S1600000 32)
    (w : FVec Ideal S1600000 .f32) : FVec Ideal S100000x128 .f32 :=
  summed dst (weighted (gathered h src) (weightColumn w))

/-- The whole network. -/
def network (x : FVec Ideal S100000x128 .f32) (src dst : IVec S1600000 32)
    (w : FVec Ideal S1600000 .f32) (W0 : FVec Ideal S128x128 .f32)
    (b0 : FVec Ideal S1x128 .f32) (W1 : FVec Ideal S128x64 .f32)
    (b1 : FVec Ideal S1x64 .f32) : FVec Ideal S100000x64 .f32 :=
  classes (aggregated (hidden (aggregated x src dst w) W0 b0) src dst w) W1 b1

end Cert.Stages

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.Region0.lean ====
/-
  The edge-weighting region as one function of its two operand arrays.

  The region multiplies every row of the gathered matrix [1600000, 128] by that edge's weight, a column [1600000, 1],
  in 160 blocks of 10000 rows.  Block t of each operand and of the result is rows 10000·t … 10000·t + 9999, so what
  point t writes back is block t of the whole-array product g[e, d] · w[e, 0], and the 160 blocks cover every row
  (row e lies in block e / 10000).  Hence the result array ends at that product.
-/
import proofs.«119716_j75917841924646_1_alg».proof.Proof.Gen.KernelIdeal.Frame
import proofs.«119716_j75917841924646_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«119716_j75917841924646_1_alg».proof.Proof.LibKeepdimsLayout

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's product at (p, q): the block's entry times the weight of row p. -/
theorem product_apply (x0 : FVec Ideal S10000x128 .f32) (x1 : FVec Ideal S10000x1 .f32) (p : Fin 10000) (q : Fin 128) :
    k0_pay1 (F := Ideal) x0 x1 (ix2 p q) = x0 (ix2 p q) * x1 (ix2 p (0 : Fin 1)) := by
  unfold k0_pay1
  show mulf (shapeCast S10000x128 x0 _) (broadcastTo S10000x128 (shapeCast S10000x1 x1 _) _) (ix2 p q) = _
  rw [shapeCast_self, shapeCast_self, mulf_apply]
  exact congrArg (x0 (ix2 p q) * ·) (Cert.LayoutKeepdims.broadcastTo_a1_ab_apply x1 _ p q)

/-- The whole-array product at (e, d): the gathered entry times the weight of edge e. -/
theorem weighted_apply (g : FVec Ideal S1600000x128 .f32) (wc : FVec Ideal S1600000x1 .f32) (e : Fin 1600000) (d : Fin 128) :
    Cert.Stages.weighted g wc (ix2 e d) = g (ix2 e d) * wc (ix2 e (0 : Fin 1)) := by
  unfold Cert.Stages.weighted
  rw [mulf_apply]
  refine congrArg (g (ix2 e d) * ·) (broadcastInDim_apply _ _ wc (ix2 e d) (ix2 e (0 : Fin 1)) fun a => ?_)
  match a with
  | ⟨0, _⟩ => rfl
  | ⟨1, _⟩ => rfl

/-- Every window's block at point t is block row t, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product. -/
theorem flushed_eq (c : Dev nD) (t : Fin cfg0.N) :
    (dat0 (F := Ideal) V c).flushed 2 t
      = ((cfg0.win 2).blk t).view.read (Elt Ideal) (Cert.Stages.weighted (V c main_v6) (V c main_v7)) := by
  show (cfg0.win 2).cut (grid0.coords t) ((dat0 (F := Ideal) V c).after 2 t) = _
  rw [after0_2]
  unfold out0_2
  rw [View.canon_unit_zero origin]
  simp only [View.ld_unit_zero (S := S10000x128) origin, View.ld_unit_zero (S := S10000x1) origin]
  obtain ⟨e0, e1, e2, e3, e4, e5⟩ := block_index t
  have ht : t.val < 160 := lt_of_lt_of_eq t.isLt (show cfg0.N = 160 from N_0)
  funext y
  obtain ⟨p, q, rfl⟩ : ∃ (p : Fin 10000) (q : Fin 128), y = ix2 p q := ⟨y 0, y 1, eq_ix2 y⟩
  refine (product_apply _ _ p q).trans ?_
  rw [View.read_apply]
  let n : Fin 1600000 := ⟨10000 * t.val + p.val, by have := p.isLt; omega⟩
  have hout : ((cfg0.win 2).blk t).view.emb (ix2 p q) = ix2 n q := by
    funext a; apply Fin.ext
    match a with
    | ⟨0, _⟩ => show win0_2.index t (0 : Fin 2) * 10000 + 1 * p.val = 10000 * t.val + p.val; rw [e4]; omega
    | ⟨1, _⟩ => show win0_2.index t (1 : Fin 2) * 128 + 1 * q.val = q.val; rw [e5]; omega
  rw [hout]
  refine Eq.trans ?_ (weighted_apply _ _ n q).symm
  have hg : iblk0 V c 0 t (ix2 p q) = V c main_v6 (ix2 n q) := by
    unfold iblk0
    rw [View.read_apply]
    show V c main_v6 (((cfg0.win 0).blk t).view.emb (ix2 p q)) = V c main_v6 (ix2 n q)
    refine congrArg _ (funext fun a => Fin.ext ?_)
    match a with
    | ⟨0, _⟩ => show win0_0.index t (0 : Fin 2) * 10000 + 1 * p.val = 10000 * t.val + p.val; rw [e0]; omega
    | ⟨1, _⟩ => show win0_0.index t (1 : Fin 2) * 128 + 1 * q.val = q.val; rw [e1]; omega
  have hw : iblk0 V c 1 t (ix2 p (0 : Fin 1)) = V c main_v7 (ix2 n (0 : Fin 1)) := by
    unfold iblk0
    rw [View.read_apply]
    show V c main_v7 (((cfg0.win 1).blk t).view.emb (ix2 p (0 : Fin 1))) = V c main_v7 (ix2 n (0 : Fin 1))
    refine congrArg _ (funext fun a => Fin.ext ?_)
    match a with
    | ⟨0, _⟩ => show win0_1.index t (0 : Fin 2) * 10000 + 1 * p.val = 10000 * t.val + p.val; rw [e2]; omega
    | ⟨1, _⟩ => show win0_1.index t (1 : Fin 2) * 1 + 1 * 0 = 0; rw [e3]
  rw [hg, hw]

/-- An index of the result is in point t's block iff each coordinate is in the block's range on its axis. -/
theorem mem_block (t : Fin cfg0.N) (i : S1600000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v8).slice (win0_2.rect t)).set ↔ _
  rw [View.set_slice_whole, Rect.mem_set_unit]
  exact Iff.rfl

/-- Every row lies in the block of its quotient by the block's height. -/
theorem covered (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 160 := N_0
  let t : Fin cfg0.N := ⟨(i 0).val / 10000, by rw [hN]; omega⟩
  obtain ⟨-, -, -, -, e4, e5⟩ := block_index t
  have e4' : win0_2.index t (0 : Fin 2) = (i 0).val / 10000 := e4
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; rw [e4']; omega
  | ⟨1, _⟩ => show win0_2.index t (1 : Fin 2) * 128 ≤ (i 1).val ∧ (i 1).val < win0_2.index t (1 : Fin 2) * 128 + 128; rw [e5]; omega

/-- The result array after the region: every gathered row times its edge's weight. -/
theorem closed (c : Dev nD) :
    (dat0 (F := Ideal) V c).arrAt 2 cfg0.N = Cert.Stages.weighted (V c main_v6) (V c main_v7) :=
  (dat0 (F := Ideal) V c).arrAt_eq_of_cover 2 _ (fun t _ => flushed_eq V c t) covered

end Cert.KernelIdeal.Region0

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Region1.lean ====
/-
  The first dense transform of the network, tiled by rows.

  The transform is relu (a · W + b): entry (n, q) of the result is max (Σ_k a[n, k] · W[k, q] + b[0, q]) 0, for a of
  100000 rows and 128 columns, W of 128 × 128 and b one row of 128.  The tiled program cuts the rows into 20 blocks of
  5000; at block t it reads rows 5000 t … 5000 t + 4999 of a, all of W and all of b, and writes the same rows of the
  result.  A row of the result depends on the same row of a alone, so the blocks together are the whole transform:
  row n lies in block n / 5000, at place n mod 5000.
-/
import proofs.«119716_j75917841924646_1_alg».proof.Proof.Gen.KernelIdeal.Frame
import proofs.«119716_j75917841924646_1_alg».proof.Proof.Stages
import proofs.«119716_j75917841924646_1_alg».proof.Proof.LibDotInner
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## One block of the tiled program, entry by entry -/

/-- The four coordinate facts of the block's product: rows of the left operand and columns of the right one are the
    result's, and the contracted coordinate is the last of the left and the first of the right. -/
theorem blockDot_l0 (j : S5000x128.Idx) (q : dot_S5000x128_S128x128_S5000x128_1_0_0_1_n_n.contr.Idx) :
    (dot_S5000x128_S128x128_S5000x128_1_0_0_1_n_n.lhsIdx j q 0).val = (j 0).val := by
  simp [DotDims.lhsIdx, dot_S5000x128_S128x128_S5000x128_1_0_0_1_n_n]; rfl

theorem blockDot_l1 (j : S5000x128.Idx) (q : dot_S5000x128_S128x128_S5000x128_1_0_0_1_n_n.contr.Idx) :
    (dot_S5000x128_S128x128_S5000x128_1_0_0_1_n_n.lhsIdx j q 1).val = (q ⟨0, by decide⟩).val := by
  simp [DotDims.lhsIdx, dot_S5000x128_S128x128_S5000x128_1_0_0_1_n_n]; rfl

theorem blockDot_r0 (j : S5000x128.Idx) (q : dot_S5000x128_S128x128_S5000x128_1_0_0_1_n_n.contr.Idx) :
    (dot_S5000x128_S128x128_S5000x128_1_0_0_1_n_n.rhsIdx j q 0).val = (q ⟨0, by decide⟩).val := by
  simp [DotDims.rhsIdx, dot_S5000x128_S128x128_S5000x128_1_0_0_1_n_n]; rfl

theorem blockDot_r1 (j : S5000x128.Idx) (q : dot_S5000x128_S128x128_S5000x128_1_0_0_1_n_n.contr.Idx) :
    (dot_S5000x128_S128x128_S5000x128_1_0_0_1_n_n.rhsIdx j q 1).val = (j 1).val := by
  simp [DotDims.rhsIdx, dot_S5000x128_S128x128_S5000x128_1_0_0_1_n_n]; rfl

/-- The block's result at (p, q): max (Σ_k x0[p, k] · x1[k, q] + x2[0, q]) 0. -/
theorem pay_apply (x0 : FVec Ideal S5000x128 .f32) (x1 : FVec Ideal S128x128 .f32) (x2 : FVec Ideal S1x128 .f32)
    (p : Fin 5000) (q : Fin 128) :
    k1_pay1 x0 x1 x2 (ix2 p q)
      = max (∑ k : Fin 128, x0 (ix2 p k) * x1 (ix2 k q) + x2 (ix2 (0 : Fin 1) q)) (Ideal.ofBits .f32 0x00000000#32) := by
  unfold k1_pay1
  rw [maximumf_apply, addf_apply, broadcast_apply, broadcastTo_1b_ab_apply]
  simp only [matmul]
  rw [Idealize.ShloMosaic.DotInner.matmul_zero_apply _ rfl rfl blockDot_l0 blockDot_l1 blockDot_r0 blockDot_r1]
  simp only [truncf_apply]
  have cast_id : ∀ k : Fin 128, shapeCast S5000x128 x0 shapeCasts_S5000x128_S5000x128 (ix2 p k) = x0 (ix2 p k) :=
    fun k => shapeCast_apply x0 _ _ _ rfl
  simp only [cast_id]
  rfl

/-! ## The whole transform, entry by entry -/

theorem wholeDot_l0 (j : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx j q 0).val = (j 0).val := by
  simp [DotDims.lhsIdx, Cert.ReferenceIdeal.dot_S100000x128_S128x128_S100000x128_1_0_0_1_n_n]; rfl

theorem wholeDot_l1 (j : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.lhsIdx j q 1).val = (q ⟨0, by decide⟩).val := by
  simp [DotDims.lhsIdx, Cert.ReferenceIdeal.dot_S100000x128_S128x128_S100000x128_1_0_0_1_n_n]; rfl

theorem wholeDot_r0 (j : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx j q 0).val = (q ⟨0, by decide⟩).val := by
  simp [DotDims.rhsIdx, Cert.ReferenceIdeal.dot_S100000x128_S128x128_S100000x128_1_0_0_1_n_n]; rfl

theorem wholeDot_r1 (j : Cert.ReferenceIdeal.S100000x128.Idx)
    (q : Cert.ReferenceIdeal.dot_S100000x128_S128x128_S100000x128_1_0_0_1_n_n.contr.Idx) :
    (Cert.ReferenceIdeal.dot_S100000x128_S128x128_S100000x128_1_0_0_1_n_n.rhsIdx j q 1).val = (j 1).val := by
  simp [DotDims.rhsIdx, Cert.ReferenceIdeal.dot_S100000x128_S128x128_S100000x128_1_0_0_1_n_n]; rfl

/-- The transform at (n, q): max (Σ_k a[n, k] · W[k, q] + b[0, q]) 0. -/
theorem hidden_apply (a : FVec Ideal S100000x128 .f32) (W : FVec Ideal S128x128 .f32) (b : FVec Ideal S1x128 .f32)
    (n : Fin 100000) (q : Fin 128) :
    Cert.Stages.hidden a W b (ix2 n q)
      = max (∑ k : Fin 128, a (ix2 n k) * W (ix2 k q) + b (ix2 (0 : Fin 1) q)) (Ideal.ofBits .f32 0x00000000#32) := by
  unfold Cert.Stages.hidden
  rw [maximumf_apply, addf_apply]
  simp only [Host.dotGeneral]
  rw [Ideal.dotGeneral_apply]
  rw [← Equiv.sum_comp (contrEquiv1 Cert.ReferenceIdeal.dot_S100000x128_S128x128_S100000x128_1_0_0_1_n_n 128 rfl rfl).symm]
  have ops := fun k : Fin 128 => Idealize.ShloMosaic.DotInner.operand_idx
    Cert.ReferenceIdeal.dot_S100000x128_S128x128_S100000x128_1_0_0_1_n_n rfl rfl wholeDot_l0 wholeDot_l1 wholeDot_r0 wholeDot_r1 n q k
  simp only [fun k => (ops k).1, fun k => (ops k).2]
  have row : broadcastInDim Cert.ReferenceIdeal.S100000x128 ![0, 1] Cert.ReferenceIdeal.Gen.bcast_S1x128_S100000x128_0_1 b (ix2 n q)
      = b (ix2 (0 : Fin 1) q) := by
    refine broadcastInDim_apply _ _ b (ix2 n q) (ix2 (0 : Fin 1) q) fun ax => ?_
    match ax with
    | ⟨0, _⟩ => rfl
    | ⟨1, _⟩ => rfl
  have zero : broadcastInDim Cert.ReferenceIdeal.S100000x128 ![] Cert.ReferenceIdeal.Gen.bcast_S_S100000x128
      (constant (F := Ideal) Cert.ReferenceIdeal.S_ .f32 0x00000000#32) (ix2 n q) = Ideal.ofBits .f32 0x00000000#32 := by
    rw [broadcastInDim_apply _ _ _ (ix2 n q) (fun a => a.elim0) (fun a => a.elim0), constant_apply]
  rw [row, zero]

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the rows' windows at block (t, 0), the whole-array windows at
    (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the transform of the arrays as the region finds them. -/
theorem flushed_eq (c : Dev nD) (t : Fin cfg1.N) :
    (dat1 (F := Ideal) V c).flushed 3 t
      = ((cfg1.win 3).blk t).view.read (Elt Ideal) (Cert.Stages.hidden (V c main_v11) (V c main_arg4) (V c main_arg5)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin,
    View.ld_unit_zero (S := S1x128) origin]
  obtain ⟨e00, e01, e10, e11, e20, e21, e30, e31⟩ := block_index t
  have ht : t.val < 20 := lt_of_lt_of_eq t.isLt N_1
  funext y
  revert y
  show ∀ y : S5000x128.Idx, k1_pay1 (iblk1 V c 0 t) (iblk1 V c 1 t) (iblk1 V c 2 t) y
      = Cert.Stages.hidden (V c main_v11) (V c main_arg4) (V c main_arg5) (((cfg1.win 3).blk t).view.emb y)
  suffices entry : ∀ (p : Fin 5000) (q : Fin 128), k1_pay1 (iblk1 V c 0 t) (iblk1 V c 1 t) (iblk1 V c 2 t) (ix2 p q)
      = Cert.Stages.hidden (V c main_v11) (V c main_arg4) (V c main_arg5) (((cfg1.win 3).blk t).view.emb (ix2 p q)) by
    intro y; rw [eq_ix2 y]; exact entry (y 0) (y 1)
  intro p q
  have hp : p.val < 5000 := p.isLt
  -- place p of block t is row 5000 t + p of the array
  have place : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [place, hidden_apply, pay_apply]
  -- the three operands' blocks, read at the entries the sum uses
  have rows : ∀ k : Fin 128, iblk1 V c 0 t (ix2 p k)
      = V c main_v11 (ix2 (⟨t.val * 5000 + p.val, by omega⟩ : Fin 100000) k) := fun k => by
    show V c main_v11 (((cfg1.win 0).blk t).view.emb (ix2 p k)) = _
    congr 1
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have weights : ∀ k : Fin 128, iblk1 V c 1 t (ix2 k q) = V c main_arg4 (ix2 k q) := fun k => by
    show V c main_arg4 (((cfg1.win 1).blk t).view.emb (ix2 k q)) = _
    congr 1
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have bias : iblk1 V c 2 t (ix2 (0 : Fin 1) q) = V c main_arg5 (ix2 (0 : Fin 1) q) := by
    show V c main_arg5 (((cfg1.win 2).blk t).view.emb (ix2 (0 : Fin 1) q)) = _
    congr 1
    funext a; apply Fin.ext
    match a with
    | ⟨0, _⟩ => show win1_2.index t (0 : Fin 2) * 1 + 1 * (0 : Fin 1).val = (0 : Fin 1).val; omega
    | ⟨1, _⟩ => show win1_2.index t (1 : Fin 2) * 128 + 1 * q.val = q.val; omega
  simp only [rows, weights, bias]

/-- An index of the array is in grid point t's block iff each coordinate is in the block's range on its axis. -/
theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v12).slice (win1_3.rect t)).set ↔ _
  rw [View.set_slice_whole, Rect.mem_set_unit]
  exact Iff.rfl

/-- Every index of the array is in some block: row n is in block n / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hlt : (i 0).val / 5000 < cfg1.N := lt_of_lt_of_eq (by omega) N_1.symm
  obtain ⟨-, -, -, -, -, -, e30, e31⟩ := block_index ⟨(i 0).val / 5000, hlt⟩
  have e30' : win1_3.index ⟨(i 0).val / 5000, hlt⟩ (0 : Fin 2) = (i 0).val / 5000 := e30
  refine ⟨⟨(i 0).val / 5000, hlt⟩, flush1_3 _, ?_⟩
  rw [mem_block]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    omega

/-- THE ARRAY after the region: the transform of the arrays as the region finds them. -/
theorem closed (c : Dev nD) :
    (dat1 (F := Ideal) V c).arrAt 3 cfg1.N = Cert.Stages.hidden (V c main_v11) (V c main_arg4) (V c main_arg5) :=
  (dat1 V c).arrAt_eq_of_cover 3 _ (fun t _ => flushed_eq V c t) covered

end Cert.KernelIdeal.Region1

end
-- ==== Proof.Region2.lean ====
/-
  The edge-weighting region as one function of its two operand arrays.

  The region multiplies every row of the gathered matrix [1600000, 128] by that edge's weight, a column [1600000, 1],
  in 160 blocks of 10000 rows.  Block t of each operand and of the result is rows 10000·t … 10000·t + 9999, so what
  point t writes back is block t of the whole-array product g[e, d] · w[e, 0], and the 160 blocks cover every row
  (row e lies in block e / 10000).  Hence the result array ends at that product.
-/
import proofs.«119716_j75917841924646_1_alg».proof.Proof.Gen.KernelIdeal.Frame
import proofs.«119716_j75917841924646_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«119716_j75917841924646_1_alg».proof.Proof.LibKeepdimsLayout

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's product at (p, q): the block's entry times the weight of row p. -/
theorem product_apply (x0 : FVec Ideal S10000x128 .f32) (x1 : FVec Ideal S10000x1 .f32) (p : Fin 10000) (q : Fin 128) :
    k2_pay1 (F := Ideal) x0 x1 (ix2 p q) = x0 (ix2 p q) * x1 (ix2 p (0 : Fin 1)) := by
  unfold k2_pay1
  show mulf (shapeCast S10000x128 x0 _) (broadcastTo S10000x128 (shapeCast S10000x1 x1 _) _) (ix2 p q) = _
  rw [shapeCast_self, shapeCast_self, mulf_apply]
  exact congrArg (x0 (ix2 p q) * ·) (Cert.LayoutKeepdims.broadcastTo_a1_ab_apply x1 _ p q)

/-- The whole-array product at (e, d): the gathered entry times the weight of edge e. -/
theorem weighted_apply (g : FVec Ideal S1600000x128 .f32) (wc : FVec Ideal S1600000x1 .f32) (e : Fin 1600000) (d : Fin 128) :
    Cert.Stages.weighted g wc (ix2 e d) = g (ix2 e d) * wc (ix2 e (0 : Fin 1)) := by
  unfold Cert.Stages.weighted
  rw [mulf_apply]
  refine congrArg (g (ix2 e d) * ·) (broadcastInDim_apply _ _ wc (ix2 e d) (ix2 e (0 : Fin 1)) fun a => ?_)
  match a with
  | ⟨0, _⟩ => rfl
  | ⟨1, _⟩ => rfl

/-- Every window's block at point t is block row t, block column 0. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product. -/
theorem flushed_eq (c : Dev nD) (t : Fin cfg2.N) :
    (dat2 (F := Ideal) V c).flushed 2 t
      = ((cfg2.win 2).blk t).view.read (Elt Ideal) (Cert.Stages.weighted (V c main_v19) (V c main_v20)) := by
  show (cfg2.win 2).cut (grid2.coords t) ((dat2 (F := Ideal) V c).after 2 t) = _
  rw [after2_2]
  unfold out2_2
  rw [View.canon_unit_zero origin]
  simp only [View.ld_unit_zero (S := S10000x128) origin, View.ld_unit_zero (S := S10000x1) origin]
  obtain ⟨e0, e1, e2, e3, e4, e5⟩ := block_index t
  have ht : t.val < 160 := lt_of_lt_of_eq t.isLt (show cfg2.N = 160 from N_2)
  funext y
  obtain ⟨p, q, rfl⟩ : ∃ (p : Fin 10000) (q : Fin 128), y = ix2 p q := ⟨y 0, y 1, eq_ix2 y⟩
  refine (product_apply _ _ p q).trans ?_
  rw [View.read_apply]
  let n : Fin 1600000 := ⟨10000 * t.val + p.val, by have := p.isLt; omega⟩
  have hout : ((cfg2.win 2).blk t).view.emb (ix2 p q) = ix2 n q := by
    funext a; apply Fin.ext
    match a with
    | ⟨0, _⟩ => show win2_2.index t (0 : Fin 2) * 10000 + 1 * p.val = 10000 * t.val + p.val; rw [e4]; omega
    | ⟨1, _⟩ => show win2_2.index t (1 : Fin 2) * 128 + 1 * q.val = q.val; rw [e5]; omega
  rw [hout]
  refine Eq.trans ?_ (weighted_apply _ _ n q).symm
  have hg : iblk2 V c 0 t (ix2 p q) = V c main_v19 (ix2 n q) := by
    unfold iblk2
    rw [View.read_apply]
    show V c main_v19 (((cfg2.win 0).blk t).view.emb (ix2 p q)) = V c main_v19 (ix2 n q)
    refine congrArg _ (funext fun a => Fin.ext ?_)
    match a with
    | ⟨0, _⟩ => show win2_0.index t (0 : Fin 2) * 10000 + 1 * p.val = 10000 * t.val + p.val; rw [e0]; omega
    | ⟨1, _⟩ => show win2_0.index t (1 : Fin 2) * 128 + 1 * q.val = q.val; rw [e1]; omega
  have hw : iblk2 V c 1 t (ix2 p (0 : Fin 1)) = V c main_v20 (ix2 n (0 : Fin 1)) := by
    unfold iblk2
    rw [View.read_apply]
    show V c main_v20 (((cfg2.win 1).blk t).view.emb (ix2 p (0 : Fin 1))) = V c main_v20 (ix2 n (0 : Fin 1))
    refine congrArg _ (funext fun a => Fin.ext ?_)
    match a with
    | ⟨0, _⟩ => show win2_1.index t (0 : Fin 2) * 10000 + 1 * p.val = 10000 * t.val + p.val; rw [e2]; omega
    | ⟨1, _⟩ => show win2_1.index t (1 : Fin 2) * 1 + 1 * 0 = 0; rw [e3]
  rw [hg, hw]

/-- An index of the result is in point t's block iff each coordinate is in the block's range on its axis. -/
theorem mem_block (t : Fin cfg2.N) (i : S1600000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v21).slice (win2_2.rect t)).set ↔ _
  rw [View.set_slice_whole, Rect.mem_set_unit]
  exact Iff.rfl

/-- Every row lies in the block of its quotient by the block's height. -/
theorem covered (i : S1600000x128.Idx) :
    ∃ t : Fin cfg2.N, (cfg2.win 2).flush t = true ∧ i ∈ ((cfg2.win 2).blk t).view.set := by
  have hi0 : (i 0).val < 1600000 := (i 0).isLt
  have hi1 : (i 1).val < 128 := (i 1).isLt
  have hN : cfg2.N = 160 := N_2
  let t : Fin cfg2.N := ⟨(i 0).val / 10000, by rw [hN]; omega⟩
  obtain ⟨-, -, -, -, e4, e5⟩ := block_index t
  have e4' : win2_2.index t (0 : Fin 2) = (i 0).val / 10000 := e4
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; rw [e4']; omega
  | ⟨1, _⟩ => show win2_2.index t (1 : Fin 2) * 128 ≤ (i 1).val ∧ (i 1).val < win2_2.index t (1 : Fin 2) * 128 + 128; rw [e5]; omega

/-- The result array after the region: every gathered row times its edge's weight. -/
theorem closed (c : Dev nD) :
    (dat2 (F := Ideal) V c).arrAt 2 cfg2.N = Cert.Stages.weighted (V c main_v19) (V c main_v20) :=
  (dat2 (F := Ideal) V c).arrAt_eq_of_cover 2 _ (fun t _ => flushed_eq V c t) covered

end Cert.KernelIdeal.Region2

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.Region3.lean ====
/-
  Region 3 of the kernel: the second transform, tiled over 20 blocks of 5000 rows.

  The region reads the array h [100000, 128] in row blocks [5000, 128], the weights W [128, 64] and the bias b [1, 64]
  whole, and writes the array [100000, 64] in row blocks [5000, 64].  With the logits of a row
  y(q) = Σ_k h[n, k] · W[k, q] + b[0, q], their maximum M = max_q y(q) (folded from −∞), the entry (n, q) written is
  y(q) − M − log Σ_q' exp (y(q') − M): the row-wise log-softmax of h · W + b.  A block's row p at grid point t is the
  array's row 5000 · t + p, a row's log-softmax reads that row only, and the 20 blocks tile the rows; so after the region
  the output array is the whole-array function Cert.Stages.classes of the three input arrays.

  The file: the log-softmax of one row as a function of the row's logits; the block's payload and the whole-array function
  both read at an index as that function of a row of logits; the blocks of the windows as rows of the arrays; what a point
  writes back; the blocks cover the array.
-/
import proofs.«119716_j75917841924646_1_alg».proof.Proof.Gen.KernelIdeal.Frame
import proofs.«119716_j75917841924646_1_alg».proof.Proof.Stages
import proofs.«119716_j75917841924646_1_alg».proof.Proof.LibDotInner
import proofs.«119716_j75917841924646_1_alg».proof.Proof.LibRowSum
import proofs.«119716_j75917841924646_1_alg».proof.Proof.LibKeepdimsLayout
import proofs.«119716_j75917841924646_1_alg».proof.Proof.LibMaxMinFold
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

/-! ## One row -/

/-- −∞ as the extended reals read the word 0xFF800000. -/
abbrev negInf : EReal := Ideal.ofBits .f32 0xFF800000#32

/-- The word 0xFF800000 is the bottom of the extended reals. -/
theorem negInf_eq_bot : negInf = (⊥ : EReal) := by
  simp [negInf, Ideal.ofBits, Ideal.ieee]

/-- A row's maximum, folded from −∞. -/
def rowMax {b : ℕ} (y : Fin b → EReal) : EReal := Finset.univ.fold max negInf y

/-- The maximum of −∞ and a row's maximum is the row's maximum. -/
theorem max_negInf_rowMax {b : ℕ} (y : Fin b → EReal) : max negInf (rowMax y) = rowMax y := by
  rw [negInf_eq_bot]; exact max_eq_right bot_le

/-- The log-softmax of one row of logits y at column q: y(q) − M − log Σ_q' exp (y(q') − M), M the row's maximum. -/
def rowLogSoftmax {b : ℕ} (y : Fin b → EReal) (q : Fin b) : EReal :=
  (y q - rowMax y) - Ideal.log (∑ q' : Fin b, Ideal.exp (y q' - rowMax y))

/-- A row of logits: Σ_k h[n, k] · W[k, q] + b[0, q]. -/
def rowLogits {n K N : ℕ} (h : (⟨2, ![n, K]⟩ : Shape).Idx → EReal) (W : (⟨2, ![K, N]⟩ : Shape).Idx → EReal)
    (b : (⟨2, ![1, N]⟩ : Shape).Idx → EReal) (r : Fin n) (q : Fin N) : EReal :=
  ∑ k : Fin K, h (ix2 r k) * W (ix2 k q) + b (ix2 (0 : Fin 1) q)

/-! ## The vector unit's operations on a block, read at an index -/

/-- A maximum-reduction of a [a, b] matrix over its columns, from the word of −∞: at row r the row's maximum. -/
theorem rowMax_block_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction .maximumf [1] ⟨1, ![a]⟩ src 0xFF800000#32 h hφ hacc (ix1 r) = rowMax (fun k : Fin b => src (ix2 r k)) := by
  refine (Ideal.multiReduction_maximumf_single src 0xFF800000#32 h hφ hacc (ix1 r)).trans ?_
  exact Finset.fold_congr fun k _ => congrArg src (RowSum.lift_row h r k)

/-- A vector [a] as a column [a, 1] repeated along [a, b]: at (r, q) the vector's entry r. -/
theorem column_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (q : Fin b) :
    broadcastTo ⟨2, ![a, b]⟩ (shapeCast ⟨2, ![a, 1]⟩ v hc) hb (ix2 r q) = v (ix1 r) :=
  (Cert.LayoutKeepdims.broadcastTo_a1_ab_apply _ hb r q).trans (Cert.LayoutKeepdims.shapeCast_a_a1_apply v hc r 0)

/-- The block's log-softmax stage, as the payload spells it, of the block's logits. -/
def softmaxBlock (v8 : FVec Ideal S5000x64 .f32) : FVec Ideal S5000x64 .f32 :=
  have v9 : FVec Ideal S5000 .f32 := multiReduction .maximumf [1] S5000 v8 0xFF800000#32 reduces_S5000x64_S5000 (.inl rfl) rfl
  have v10 : FVec Ideal S5000x1 .f32 := shapeCast S5000x1 v9 shapeCasts_S5000_S5000x1
  have v11 : FVec Ideal S5000x64 .f32 := broadcastTo S5000x64 v10 broadcasts_S5000x1_S5000x64
  have v12 : FVec Ideal S5000x64 .f32 := subf v8 v11
  have v13 : FVec Ideal S5000x64 .f32 := exp v12
  have v14 : FVec Ideal S5000 .f32 := multiReduction .add [1] S5000 v13 0x00000000#32 reduces_S5000x64_S5000 (.inl rfl) rfl
  have v15 : FVec Ideal S5000x1 .f32 := shapeCast S5000x1 v14 shapeCasts_S5000_S5000x1
  have v16 : FVec Ideal S5000x1 .f32 := log v15
  have v17 : FVec Ideal S5000x64 .f32 := broadcastTo S5000x64 v16 broadcasts_S5000x1_S5000x64
  subf v12 v17

/-- The block's logits, as the payload spells them. -/
def logitsBlock (x0 : Vec Ideal S5000x128 .f32) (x1 : Vec Ideal S128x64 .f32) (x2 : Vec Ideal S1x64 .f32) : FVec Ideal S5000x64 .f32 :=
  addf (matmul dot_S5000x128_S128x64_S5000x64_1_0_0_1_n_n none
      (truncf .bf16 (shapeCast S5000x128 x0 shapeCasts_S5000x128_S5000x128) bitsLt_bf16_f32)
      (truncf .bf16 x1 bitsLt_bf16_f32) (constant S5000x64 .f32 0x00000000#32))
    (broadcastTo S5000x64 x2 broadcasts_S1x64_S5000x64)

/-- The payload is the log-softmax stage of the logits. -/
theorem pay_eq (x0 : Vec Ideal S5000x128 .f32) (x1 : Vec Ideal S128x64 .f32) (x2 : Vec Ideal S1x64 .f32) :
    k3_pay1 x0 x1 x2 = softmaxBlock (logitsBlock x0 x1 x2) := rfl

/-- The log-softmax stage at (p, q) is the row function of row p of its operand. -/
theorem softmaxBlock_apply (v8 : FVec Ideal S5000x64 .f32) (p : Fin 5000) (q : Fin 64) :
    softmaxBlock v8 (ix2 p q) = rowLogSoftmax (fun q' : Fin 64 => v8 (ix2 p q')) q := by
  unfold softmaxBlock rowLogSoftmax
  dsimp only
  have hM : ∀ q' : Fin 64, (subf v8 (broadcastTo S5000x64 (shapeCast S5000x1
        (multiReduction .maximumf [1] S5000 v8 0xFF800000#32 reduces_S5000x64_S5000 (.inl rfl) rfl) shapeCasts_S5000_S5000x1)
        broadcasts_S5000x1_S5000x64)) (ix2 p q') = v8 (ix2 p q') - rowMax (fun k : Fin 64 => v8 (ix2 p k)) := fun q' => by
    show v8 (ix2 p q') - _ = _
    refine congrArg (v8 (ix2 p q') - ·) ?_
    exact (column_apply _ shapeCasts_S5000_S5000x1 broadcasts_S5000x1_S5000x64 p q').trans
      (rowMax_block_apply v8 reduces_S5000x64_S5000 (.inl rfl) rfl p)
  generalize (subf v8 (broadcastTo S5000x64 (shapeCast S5000x1
        (multiReduction .maximumf [1] S5000 v8 0xFF800000#32 reduces_S5000x64_S5000 (.inl rfl) rfl) shapeCasts_S5000_S5000x1)
        broadcasts_S5000x1_S5000x64)) = v12 at hM ⊢
  show v12 (ix2 p q) - _ = _
  rw [hM q]
  refine congrArg (fun z : EReal => (v8 (ix2 p q) - rowMax (fun k : Fin 64 => v8 (ix2 p k))) - z) ?_
  refine (Cert.LayoutKeepdims.broadcastTo_a1_ab_apply _ broadcasts_S5000x1_S5000x64 p q).trans ?_
  show Ideal.log _ = _
  refine congrArg Ideal.log ?_
  refine (Cert.LayoutKeepdims.shapeCast_a_a1_apply _ shapeCasts_S5000_S5000x1 p 0).trans ?_
  refine (RowSum.rowSum_apply _ reduces_S5000x64_S5000 (.inl rfl) rfl p).trans ?_
  exact Finset.sum_congr rfl fun k _ => congrArg Ideal.exp (hM k)

/-! ## The block's logits -/

/-- The block product's dimension numbers: which operand coordinate is the result's row, the result's column, the
    contraction's index. -/
theorem blockDot_l0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blockDot_l1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem blockDot_r0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem blockDot_r1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The block's logits at (p, q): row p of the block of h against column q of W, plus b's entry q. -/
theorem logitsBlock_apply (x0 : Vec Ideal S5000x128 .f32) (x1 : Vec Ideal S128x64 .f32) (x2 : Vec Ideal S1x64 .f32)
    (p : Fin 5000) (q : Fin 64) : logitsBlock x0 x1 x2 (ix2 p q) = rowLogits x0 x1 x2 p q := by
  unfold logitsBlock rowLogits
  rw [shapeCast_self]
  refine (addf_apply _ _ _).trans ?_
  refine congrArg₂ (fun u v : EReal => u + v) ?_ ?_
  · exact DotInner.matmul_zero_apply dot_S5000x128_S128x64_S5000x64_1_0_0_1_n_n rfl rfl blockDot_l0 blockDot_l1 blockDot_r0 blockDot_r1
      none _ _ p q
  · exact broadcastTo_1b_ab_apply x2 broadcasts_S1x64_S5000x64 p q

/-- THE PAYLOAD at (p, q): the log-softmax of row p of the block's logits, at column q. -/
theorem pay_apply (x0 : Vec Ideal S5000x128 .f32) (x1 : Vec Ideal S128x64 .f32) (x2 : Vec Ideal S1x64 .f32)
    (p : Fin 5000) (q : Fin 64) :
    k3_pay1 x0 x1 x2 (ix2 p q) = rowLogSoftmax (fun q' : Fin 64 => rowLogits x0 x1 x2 p q') q := by
  rw [pay_eq, softmaxBlock_apply]
  exact congrArg (fun y : Fin 64 → EReal => rowLogSoftmax y q) (funext fun q' => logitsBlock_apply x0 x1 x2 p q')

/-! ## The host's operations on the whole array, read at an index -/

/-- A column [a, 1] repeated along the rows of [a, b] by the host's broadcast: at (r, q) the column's entry of row r. -/
theorem hostColumn_apply {α : Type} {a b : ℕ}
    (h : (⟨2, ![a, 1]⟩ : Shape).BroadcastsInDim ⟨2, ![a, b]⟩ (![0, 1] : Fin 2 → Fin 2))
    (w : (⟨2, ![a, 1]⟩ : Shape).Idx → α) (r : Fin a) (q : Fin b) :
    broadcastInDim ⟨2, ![a, b]⟩ ![0, 1] h w (ix2 r q) = w (ix2 r (0 : Fin 1)) :=
  broadcastInDim_apply _ h w (ix2 r q) (ix2 r (0 : Fin 1)) fun ax => match ax with
    | ⟨0, _⟩ => by
      show r.val = if a = 1 then 0 else r.val
      split
      · have := r.isLt; omega
      · rfl
    | ⟨1, _⟩ => rfl

/-- A vector [a] made a column [a, 1] by the host's broadcast: at (r, u) the vector's entry r. -/
theorem hostKeepdims_apply {α : Type} {a : ℕ}
    (h : (⟨1, ![a]⟩ : Shape).BroadcastsInDim ⟨2, ![a, 1]⟩ (![0] : Fin 1 → Fin 2))
    (v : (⟨1, ![a]⟩ : Shape).Idx → α) (r : Fin a) (u : Fin 1) :
    broadcastInDim ⟨2, ![a, 1]⟩ ![0] h v (ix2 r u) = v (ix1 r) :=
  broadcastInDim_apply _ h v (ix2 r u) (ix1 r) fun ax => match ax with
    | ⟨0, _⟩ => by
      show r.val = if a = 1 then 0 else r.val
      split
      · have := r.isLt; omega
      · rfl

/-- The host's exponential and logarithm of an array act entry by entry, as the extended reals' functions. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's maximum-reduction of a [a, b] matrix over its columns, from −∞: at row r the row's maximum. -/
theorem hostRowMax_apply {a b : ℕ} (y : (⟨2, ![a, b]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := .f32)) y (constant (F := Ideal) ⟨0, ![]⟩ .f32 0xFF800000#32) h' hu (ix1 r)
      = rowMax (fun k : Fin b => y (ix2 r k)) := by
  refine (Cert.MaxMinFold.hostReduce_maximumf_single (φ := .f32) y _ h' h hu (ix1 r)).trans ?_
  exact Finset.fold_congr fun k _ => congrArg y (RowSum.lift_row h r k)

/-- The host's sum of a [a, b] matrix over its columns, from zero: at row r the row's sum. -/
theorem hostRowSum_apply {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x (constant (F := Ideal) ⟨0, ![]⟩ .f32 0x00000000#32) h' hu (ix1 r) = ∑ k : Fin b, x (ix2 r k) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (RowSum.lift_row h r k)

/-- The host's product of a [M, K] matrix and a [K, N] matrix at (p, f): Σ_k lhs[p, k] · rhs[k, f]. -/
theorem hostDot_apply {M N K : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  simp only [Host.dotGeneral]
  rw [Ideal.dotGeneral_apply, ← Equiv.sum_comp (contrEquiv1 D K hr hs).symm]
  refine Finset.sum_congr rfl fun k _ => ?_
  obtain ⟨el, er⟩ := DotInner.operand_idx D hr hs hl0 hl1 hr0 hr1 p f k
  rw [el, er]

/-! ## The whole-array function at an index -/

/-- The whole-array product's dimension numbers: which operand coordinate is the result's row, the result's column, the
    contraction's index. -/
theorem arrayDot_l0 (j : S100000x64.Idx) (q : Cert.ReferenceIdeal.dot_S100000x128_S128x64_S100000x64_1_0_0_1_n_n.contr.Idx) :
    (Cert.ReferenceIdeal.dot_S100000x128_S128x64_S100000x64_1_0_0_1_n_n.lhsIdx j q 0).val = (j 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem arrayDot_l1 (j : S100000x64.Idx) (q : Cert.ReferenceIdeal.dot_S100000x128_S128x64_S100000x64_1_0_0_1_n_n.contr.Idx) :
    (Cert.ReferenceIdeal.dot_S100000x128_S128x64_S100000x64_1_0_0_1_n_n.lhsIdx j q 1).val = (q ⟨0, by decide⟩).val :=
  Cert.ReferenceIdeal.dot_S100000x128_S128x64_S100000x64_1_0_0_1_n_n.lhsIdx_val_of_single rfl j q
theorem arrayDot_r0 (j : S100000x64.Idx) (q : Cert.ReferenceIdeal.dot_S100000x128_S128x64_S100000x64_1_0_0_1_n_n.contr.Idx) :
    (Cert.ReferenceIdeal.dot_S100000x128_S128x64_S100000x64_1_0_0_1_n_n.rhsIdx j q 0).val = (q ⟨0, by decide⟩).val :=
  Cert.ReferenceIdeal.dot_S100000x128_S128x64_S100000x64_1_0_0_1_n_n.rhsIdx_val_of_single rfl j q
theorem arrayDot_r1 (j : S100000x64.Idx) (q : Cert.ReferenceIdeal.dot_S100000x128_S128x64_S100000x64_1_0_0_1_n_n.contr.Idx) :
    (Cert.ReferenceIdeal.dot_S100000x128_S128x64_S100000x64_1_0_0_1_n_n.rhsIdx j q 1).val = (j 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The array's logits at (n, q): row n of h against column q of W, plus b's entry q. -/
theorem logits_apply (a : FVec Ideal S100000x128 .f32) (W : FVec Ideal S128x64 .f32) (b : FVec Ideal S1x64 .f32)
    (n : Fin 100000) (q : Fin 64) : Cert.Stages.logits a W b (ix2 n q) = rowLogits a W b n q := by
  unfold Cert.Stages.logits rowLogits
  refine (addf_apply _ _ _).trans ?_
  refine congrArg₂ (fun u v : EReal => u + v) ?_ ?_
  · exact hostDot_apply Cert.ReferenceIdeal.dot_S100000x128_S128x64_S100000x64_1_0_0_1_n_n rfl rfl
      arrayDot_l0 arrayDot_l1 arrayDot_r0 arrayDot_r1 none a W n q
  · exact broadcastInDim_apply _ _ b (ix2 n q) (ix2 (0 : Fin 1) q) (fun ax => match ax with
      | ⟨0, _⟩ => by show 0 = if (1 : Nat) = 1 then 0 else n.val; rw [if_pos rfl]
      | ⟨1, _⟩ => by show q.val = if (64 : Nat) = 1 then 0 else q.val; rw [if_neg (by decide)])

/-- A row's logits less the row's maximum. -/
theorem shifted_apply (y : FVec Ideal S100000x64 .f32) (n : Fin 100000) (q : Fin 64) :
    Cert.Stages.shifted y (ix2 n q) = y (ix2 n q) - rowMax (fun q' : Fin 64 => y (ix2 n q')) := by
  unfold Cert.Stages.shifted Cert.Stages.lessPerRow Cert.Stages.rowMax
  refine (subf_apply _ _ _).trans ?_
  refine congrArg (fun z : EReal => y (ix2 n q) - z) ?_
  refine (hostColumn_apply _ _ n q).trans ?_
  refine (hostKeepdims_apply _ _ n 0).trans ?_
  refine (maximumf_apply _ _ _).trans ?_
  refine Eq.trans ?_ (max_negInf_rowMax (fun q' : Fin 64 => y (ix2 n q')))
  refine congrArg₂ (fun u v : EReal => max u v) rfl ?_
  exact hostRowMax_apply y _ (by decide) _ n

/-- A row less the logarithm of the sum of its exponentials. -/
theorem normalized_apply (s : FVec Ideal S100000x64 .f32) (n : Fin 100000) (q : Fin 64) :
    Cert.Stages.normalized s (ix2 n q) = s (ix2 n q) - Ideal.log (∑ k : Fin 64, Ideal.exp (s (ix2 n k))) := by
  unfold Cert.Stages.normalized
  refine (subf_apply _ _ _).trans ?_
  refine congrArg (fun z : EReal => s (ix2 n q) - z) ?_
  refine (hostColumn_apply _ _ n q).trans ?_
  refine (hostLog_apply _ _).trans ?_
  refine congrArg Ideal.log ?_
  refine (hostKeepdims_apply _ _ n 0).trans ?_
  refine (hostRowSum_apply (Host.exp s) _ (by decide) _ n).trans ?_
  exact Finset.sum_congr rfl fun k _ => hostExp_apply s (ix2 n k)

/-- THE WHOLE-ARRAY FUNCTION at (n, q): the log-softmax of row n of the array's logits, at column q. -/
theorem classes_apply (a : FVec Ideal S100000x128 .f32) (W : FVec Ideal S128x64 .f32) (b : FVec Ideal S1x64 .f32)
    (n : Fin 100000) (q : Fin 64) :
    Cert.Stages.classes a W b (ix2 n q) = rowLogSoftmax (fun q' : Fin 64 => rowLogits a W b n q') q := by
  unfold Cert.Stages.classes Cert.Stages.logSoftmax
  have hy : ∀ q' : Fin 64, Cert.Stages.logits a W b (ix2 n q') = rowLogits a W b n q' := fun q' => logits_apply a W b n q'
  generalize Cert.Stages.logits a W b = y at hy ⊢
  have hrow : (fun q' : Fin 64 => y (ix2 n q')) = fun q' : Fin 64 => rowLogits a W b n q' := funext hy
  have hs : ∀ q' : Fin 64, Cert.Stages.shifted y (ix2 n q')
      = rowLogits a W b n q' - rowMax (fun q'' : Fin 64 => rowLogits a W b n q'') := fun q' => by
    rw [shifted_apply, hrow, hy]
  rw [normalized_apply, hs q]
  unfold rowLogSoftmax
  refine congrArg (fun z : EReal => (rowLogits a W b n q - rowMax (fun q'' : Fin 64 => rowLogits a W b n q'')) - z) ?_
  exact congrArg Ideal.log (Finset.sum_congr rfl fun k _ => congrArg Ideal.exp (hs k))

/-! ## The windows' blocks as rows of the arrays -/

variable (V : (c : Dev nD) → (b : Ref sig .tc) → Buf (Elt Ideal) ((c : Thread nD τ).loc b))

/-- The accesses of the body start at the origin of their buffers. -/
theorem origin : (![0, 0] : Fin 2 → Nat) = fun _ => 0 := funext fun a => by fin_cases a <;> rfl

/-- The printed index maps, decided over the grid: at point t the blocks of h and of the output are block (t, 0), and
    W and b are read whole. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The grid has 20 points. -/
theorem point_lt (t : Fin cfg3.N) : t.val < 20 := lt_of_lt_of_eq t.isLt N_3

/-- Row p of the block at point t is row 5000 · t + p of the array. -/
def rowOf (t : Fin cfg3.N) (p : Fin 5000) : Fin 100000 :=
  ⟨t.val * 5000 + p.val, by have := point_lt t; have := p.isLt; omega⟩

/-- The block of h at point t: its entry (p, k) is the array's entry (5000 · t + p, k). -/
theorem blockH_apply (c : Dev nD) (t : Fin cfg3.N) (p : Fin 5000) (k : Fin 128) :
    (iblk3 V c 0 t : Vec Ideal S5000x128 .f32) (ix2 p k) = (V c main_v24 : S100000x128.Idx → EReal) (ix2 (rowOf t p) k) := by
  obtain ⟨e0, e1, -⟩ := index_facts t
  unfold iblk3
  rw [View.read_apply]
  show V c main_v24 _ = V c main_v24 _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * k.val = k.val; rw [e1]; omega

/-- The block of W at any point is W. -/
theorem blockW_apply (c : Dev nD) (t : Fin cfg3.N) (k : Fin 128) (q : Fin 64) :
    (iblk3 V c 1 t : Vec Ideal S128x64 .f32) (ix2 k q) = (V c main_arg6 : S128x64.Idx → EReal) (ix2 k q) := by
  obtain ⟨-, -, e2, e3, -⟩ := index_facts t
  unfold iblk3
  rw [View.read_apply]
  show V c main_arg6 _ = V c main_arg6 _
  congr 1
  funext a
  apply Fin.ext
  match a with
  | ⟨0, _⟩ => show win3_1.index t (0 : Fin 2) * 128 + 1 * k.val = k.val; rw [e2]; omega
  | ⟨1, _⟩ => show win3_1.index t (1 : Fin 2) * 64 + 1 * q.val = q.val; rw [e3]; omega

/-- The block of b at any point is b. -/
theorem blockB_apply (c : Dev nD) (t : Fin cfg3.N) (u : Fin 1) (q : Fin 64) :
    (iblk3 V c 2 t : Vec Ideal S1x64 .f32) (ix2 u q) = (V c main_arg7 : S1x64.Idx → EReal) (ix2 u q) := by
  obtain ⟨-, -, -, -, e4, e5, -⟩ := index_facts t
  unfold iblk3
  rw [View.read_apply]
  show V c main_arg7 _ = V c main_arg7 _
  congr 1
  funext a
  apply Fin.ext
  match a with
  | ⟨0, _⟩ => show win3_2.index t (0 : Fin 2) * 1 + 1 * u.val = u.val; rw [e4]; omega
  | ⟨1, _⟩ => show win3_2.index t (1 : Fin 2) * 64 + 1 * q.val = q.val; rw [e5]; omega

/-- Row p of the logits of the blocks at point t is row 5000 · t + p of the logits of the arrays. -/
theorem blockRow_eq (c : Dev nD) (t : Fin cfg3.N) (p : Fin 5000) (q : Fin 64) :
    rowLogits (n := 5000) (K := 128) (N := 64) (iblk3 V c 0 t) (iblk3 V c 1 t) (iblk3 V c 2 t) p q
      = rowLogits (n := 100000) (K := 128) (N := 64) (V c main_v24) (V c main_arg6) (V c main_arg7) (rowOf t p) q := by
  unfold rowLogits
  refine congrArg₂ (fun u v : EReal => u + v) (Finset.sum_congr rfl fun k _ => ?_) (blockB_apply V c t 0 q)
  exact congrArg₂ (fun u v : EReal => u * v) (blockH_apply V c t p k) (blockW_apply V c t k q)

/-! ## What a point writes back, and the array after the region -/

/-- WHAT POINT t WRITES BACK is block t of the whole-array function of the arrays as the region finds them. -/
theorem flushed_eq (c : Dev nD) (t : Fin cfg3.N) :
    (dat3 (F := Ideal) V c).flushed 3 t
      = ((cfg3.win 3).blk t).view.read (Elt Ideal) (Cert.Stages.classes (V c main_v24) (V c main_arg6) (V c main_arg7)) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x64) origin, View.ld_unit_zero (S := S1x64) origin]
  obtain ⟨-, -, -, -, -, -, e6, e7⟩ := index_facts t
  refine funext fun (y : S5000x64.Idx) => ?_
  obtain ⟨p, q, rfl⟩ : ∃ (p : Fin 5000) (q : Fin 64), y = ix2 p q := ⟨y 0, y 1, eq_ix2 y⟩
  show k3_pay1 (iblk3 V c 0 t) (iblk3 V c 1 t) (iblk3 V c 2 t) (ix2 p q)
    = Cert.Stages.classes (V c main_v24) (V c main_arg6) (V c main_arg7) (((cfg3.win 3).blk t).view.emb (ix2 p q))
  have hemb : ((cfg3.win 3).blk t).view.emb (ix2 p q) = (ix2 (rowOf t p) q : S100000x64.Idx) := by
    funext a
    apply Fin.ext
    match a with
    | ⟨0, _⟩ => show win3_3.index t (0 : Fin 2) * 5000 + 1 * p.val = t.val * 5000 + p.val; rw [e6]; omega
    | ⟨1, _⟩ => show win3_3.index t (1 : Fin 2) * 64 + 1 * q.val = q.val; rw [e7]; omega
  rw [hemb, pay_apply, classes_apply]
  exact congrArg (fun y : Fin 64 → EReal => rowLogSoftmax y q) (funext fun q' => blockRow_eq V c t p q')

/-- An index of the output array is in point t's block iff each coordinate is in the block's range on its axis. -/
theorem mem_block (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v25).slice (win3_3.rect t)).set ↔ _
  rw [View.set_slice_whole, Rect.mem_set_unit]
  exact Iff.rfl

/-- Row n of the output array is in the block of point n / 5000, and every point writes back: the blocks cover the array. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, lt_of_lt_of_eq (by omega : (i 0).val / 5000 < 20) N_3.symm⟩, rfl⟩
  obtain ⟨-, -, -, -, -, -, e6, e7⟩ := index_facts t
  refine ⟨t, flush3_3 t, ?_⟩
  rw [mem_block]
  intro a
  match a with
  | ⟨0, _⟩ =>
    show win3_3.index t (0 : Fin 2) * 5000 ≤ (i 0).val ∧ (i 0).val < win3_3.index t (0 : Fin 2) * 5000 + 5000
    rw [e6, ht]; omega
  | ⟨1, _⟩ =>
    show win3_3.index t (1 : Fin 2) * 64 ≤ (i 1).val ∧ (i 1).val < win3_3.index t (1 : Fin 2) * 64 + 64
    rw [e7]; omega

/-- THE ARRAY AFTER THE REGION: the row-wise log-softmax of h · W + b, as one function of the three input arrays. -/
theorem closed (c : Dev nD) :
    (dat3 (F := Ideal) V c).arrAt 3 cfg3.N = Cert.Stages.classes (V c main_v24) (V c main_arg6) (V c main_arg7) :=
  (dat3 V c).arrAt_eq_of_cover 3 _ (fun t _ => flushed_eq V c t) (fun i => covered i)

end Cert.KernelIdeal.Region3

end
-- ==== Proof.KernelValue.lean ====
/-
  The tiled program's result as the composition of the four stages.

  The program alternates host operations and regions.  Each stretch of host operations is a gather of rows with the edge
  weights made a column, or a scatter-add into zeros; each region ends with its result array at one whole-array function
  of the arrays it entered with (the edge weighting, the first transform, the edge weighting again, the second
  transform).  No stretch and no region writes an argument, so every boundary still holds the arguments as launched.
  Reading the last boundary at the result buffer and walking back through the boundaries gives the network applied to
  the eight arguments: the same composition as the reference's.
-/
import proofs.«119716_j75917841924646_1_alg».proof.Proof.Gen.KernelIdeal.Frame
import proofs.«119716_j75917841924646_1_alg».proof.Proof.Stages
import proofs.«119716_j75917841924646_1_alg».proof.Proof.Region0
import proofs.«119716_j75917841924646_1_alg».proof.Proof.Region1
import proofs.«119716_j75917841924646_1_alg».proof.Proof.Region2
import proofs.«119716_j75917841924646_1_alg».proof.Proof.Region3
import Idealize.ShloMosaic.Lib.StableHlo.Run

noncomputable section

open Idealize.ShloMosaic Idealize.ShloMosaic.TcCoe Idealize.SL.Sem Idealize.ShloMosaic.StableHlo

namespace Cert.KernelIdeal.KernelValue

open Cert.KernelIdeal Cert.KernelIdeal.Gen

/-! ## The host stretches, from any contents -/

theorem keep0_0 (W : Valuation τ sig (Elt Ideal)) : StableHlo.after (hostOps0 (F := Ideal)) W (Proc.devRef .tc main_arg0) = W (Proc.devRef .tc main_arg0) := by
  after_results_simp
theorem keep0_1 (W : Valuation τ sig (Elt Ideal)) : StableHlo.after (hostOps0 (F := Ideal)) W (Proc.devRef .tc main_arg1) = W (Proc.devRef .tc main_arg1) := by
  after_results_simp
theorem keep0_2 (W : Valuation τ sig (Elt Ideal)) : StableHlo.after (hostOps0 (F := Ideal)) W (Proc.devRef .tc main_arg2) = W (Proc.devRef .tc main_arg2) := by
  after_results_simp
theorem keep0_3 (W : Valuation τ sig (Elt Ideal)) : StableHlo.after (hostOps0 (F := Ideal)) W (Proc.devRef .tc main_arg3) = W (Proc.devRef .tc main_arg3) := by
  after_results_simp
theorem keep0_4 (W : Valuation τ sig (Elt Ideal)) : StableHlo.after (hostOps0 (F := Ideal)) W (Proc.devRef .tc main_arg4) = W (Proc.devRef .tc main_arg4) := by
  after_results_simp
theorem keep0_5 (W : Valuation τ sig (Elt Ideal)) : StableHlo.after (hostOps0 (F := Ideal)) W (Proc.devRef .tc main_arg5) = W (Proc.devRef .tc main_arg5) := by
  after_results_simp
theorem keep0_6 (W : Valuation τ sig (Elt Ideal)) : StableHlo.after (hostOps0 (F := Ideal)) W (Proc.devRef .tc main_arg6) = W (Proc.devRef .tc main_arg6) := by
  after_results_simp
theorem keep0_7 (W : Valuation τ sig (Elt Ideal)) : StableHlo.after (hostOps0 (F := Ideal)) W (Proc.devRef .tc main_arg7) = W (Proc.devRef .tc main_arg7) := by
  after_results_simp
theorem keep1_0 (W : Valuation τ sig (Elt Ideal)) : StableHlo.after (hostOps1 (F := Ideal)) W (Proc.devRef .tc main_arg0) = W (Proc.devRef .tc main_arg0) := by
  after_results_simp
theorem keep1_1 (W : Valuation τ sig (Elt Ideal)) : StableHlo.after (hostOps1 (F := Ideal)) W (Proc.devRef .tc main_arg1) = W (Proc.devRef .tc main_arg1) := by
  after_results_simp
theorem keep1_2 (W : Valuation τ sig (Elt Ideal)) : StableHlo.after (hostOps1 (F := Ideal)) W (Proc.devRef .tc main_arg2) = W (Proc.devRef .tc main_arg2) := by
  after_results_simp
theorem keep1_3 (W : Valuation τ sig (Elt Ideal)) : StableHlo.after (hostOps1 (F := Ideal)) W (Proc.devRef .tc main_arg3) = W (Proc.devRef .tc main_arg3) := by
  after_results_simp
theorem keep1_4 (W : Valuation τ sig (Elt Ideal)) : StableHlo.after (hostOps1 (F := Ideal)) W (Proc.devRef .tc main_arg4) = W (Proc.devRef .tc main_arg4) := by
  after_results_simp
theorem keep1_5 (W : Valuation τ sig (Elt Ideal)) : StableHlo.after (hostOps1 (F := Ideal)) W (Proc.devRef .tc main_arg5) = W (Proc.devRef .tc main_arg5) := by
  after_results_simp
theorem keep1_6 (W : Valuation τ sig (Elt Ideal)) : StableHlo.after (hostOps1 (F := Ideal)) W (Proc.devRef .tc main_arg6) = W (Proc.devRef .tc main_arg6) := by
  after_results_simp
theorem keep1_7 (W : Valuation τ sig (Elt Ideal)) : StableHlo.after (hostOps1 (F := Ideal)) W (Proc.devRef .tc main_arg7) = W (Proc.devRef .tc main_arg7) := by
  after_results_simp
theorem keep2_0 (W : Valuation τ sig (Elt Ideal)) : StableHlo.after (hostOps2 (F := Ideal)) W (Proc.devRef .tc main_arg0) = W (Proc.devRef .tc main_arg0) := by
  after_results_simp
theorem keep2_1 (W : Valuation τ sig (Elt Ideal)) : StableHlo.after (hostOps2 (F := Ideal)) W (Proc.devRef .tc main_arg1) = W (Proc.devRef .tc main_arg1) := by
  after_results_simp
theorem keep2_2 (W : Valuation τ sig (Elt Ideal)) : StableHlo.after (hostOps2 (F := Ideal)) W (Proc.devRef .tc main_arg2) = W (Proc.devRef .tc main_arg2) := by
  after_results_simp
theorem keep2_3 (W : Valuation τ sig (Elt Ideal)) : StableHlo.after (hostOps2 (F := Ideal)) W (Proc.devRef .tc main_arg3) = W (Proc.devRef .tc main_arg3) := by
  after_results_simp
theorem keep2_4 (W : Valuation τ sig (Elt Ideal)) : StableHlo.after (hostOps2 (F := Ideal)) W (Proc.devRef .tc main_arg4) = W (Proc.devRef .tc main_arg4) := by
  after_results_simp
theorem keep2_5 (W : Valuation τ sig (Elt Ideal)) : StableHlo.after (hostOps2 (F := Ideal)) W (Proc.devRef .tc main_arg5) = W (Proc.devRef .tc main_arg5) := by
  after_results_simp
theorem keep2_6 (W : Valuation τ sig (Elt Ideal)) : StableHlo.after (hostOps2 (F := Ideal)) W (Proc.devRef .tc main_arg6) = W (Proc.devRef .tc main_arg6) := by
  after_results_simp
theorem keep2_7 (W : Valuation τ sig (Elt Ideal)) : StableHlo.after (hostOps2 (F := Ideal)) W (Proc.devRef .tc main_arg7) = W (Proc.devRef .tc main_arg7) := by
  after_results_simp
theorem keep3_0 (W : Valuation τ sig (Elt Ideal)) : StableHlo.after (hostOps3 (F := Ideal)) W (Proc.devRef .tc main_arg0) = W (Proc.devRef .tc main_arg0) := by
  after_results_simp
theorem keep3_1 (W : Valuation τ sig (Elt Ideal)) : StableHlo.after (hostOps3 (F := Ideal)) W (Proc.devRef .tc main_arg1) = W (Proc.devRef .tc main_arg1) := by
  after_results_simp
theorem keep3_2 (W : Valuation τ sig (Elt Ideal)) : StableHlo.after (hostOps3 (F := Ideal)) W (Proc.devRef .tc main_arg2) = W (Proc.devRef .tc main_arg2) := by
  after_results_simp
theorem keep3_3 (W : Valuation τ sig (Elt Ideal)) : StableHlo.after (hostOps3 (F := Ideal)) W (Proc.devRef .tc main_arg3) = W (Proc.devRef .tc main_arg3) := by
  after_results_simp
theorem keep3_4 (W : Valuation τ sig (Elt Ideal)) : StableHlo.after (hostOps3 (F := Ideal)) W (Proc.devRef .tc main_arg4) = W (Proc.devRef .tc main_arg4) := by
  after_results_simp
theorem keep3_5 (W : Valuation τ sig (Elt Ideal)) : StableHlo.after (hostOps3 (F := Ideal)) W (Proc.devRef .tc main_arg5) = W (Proc.devRef .tc main_arg5) := by
  after_results_simp
theorem keep3_6 (W : Valuation τ sig (Elt Ideal)) : StableHlo.after (hostOps3 (F := Ideal)) W (Proc.devRef .tc main_arg6) = W (Proc.devRef .tc main_arg6) := by
  after_results_simp
theorem keep3_7 (W : Valuation τ sig (Elt Ideal)) : StableHlo.after (hostOps3 (F := Ideal)) W (Proc.devRef .tc main_arg7) = W (Proc.devRef .tc main_arg7) := by
  after_results_simp

theorem rows0 (W : Valuation τ sig (Elt Ideal)) :
    StableHlo.after (hostOps0 (F := Ideal)) W (Proc.devRef .tc main_v6) = Cert.Stages.gathered (W (Proc.devRef .tc main_arg0)) (W (Proc.devRef .tc main_arg1)) := by
  after_results_simp
  rfl
theorem column0 (W : Valuation τ sig (Elt Ideal)) :
    StableHlo.after (hostOps0 (F := Ideal)) W (Proc.devRef .tc main_v7) = Cert.Stages.weightColumn (W (Proc.devRef .tc main_arg3)) := by
  after_results_simp
  rfl
theorem sums1 (W : Valuation τ sig (Elt Ideal)) :
    StableHlo.after (hostOps1 (F := Ideal)) W (Proc.devRef .tc main_v11) = Cert.Stages.summed (W (Proc.devRef .tc main_arg2)) (W (Proc.devRef .tc main_v8)) := by
  after_results_simp
  rfl
theorem rows2 (W : Valuation τ sig (Elt Ideal)) :
    StableHlo.after (hostOps2 (F := Ideal)) W (Proc.devRef .tc main_v19) = Cert.Stages.gathered (W (Proc.devRef .tc main_v12)) (W (Proc.devRef .tc main_arg1)) := by
  after_results_simp
  rfl
theorem column2 (W : Valuation τ sig (Elt Ideal)) :
    StableHlo.after (hostOps2 (F := Ideal)) W (Proc.devRef .tc main_v20) = Cert.Stages.weightColumn (W (Proc.devRef .tc main_arg3)) := by
  after_results_simp
  rfl
theorem sums3 (W : Valuation τ sig (Elt Ideal)) :
    StableHlo.after (hostOps3 (F := Ideal)) W (Proc.devRef .tc main_v24) = Cert.Stages.summed (W (Proc.devRef .tc main_arg2)) (W (Proc.devRef .tc main_v21)) := by
  after_results_simp
  rfl

/-! ## The arguments at every boundary -/

variable (m : (ℓ : Loc nD τ sig) → Buf (Elt Ideal) ℓ) (ρ : Dev nD → PrngReg)

theorem at1_1 (c : Dev nD) : W1 (F := Ideal) m ρ c (Proc.devRef .tc main_arg1) = m ((c : Thread nD τ).loc main_arg1) :=
  (keep0_1 (W0 m ρ c)).trans rfl
theorem at2_1 (c : Dev nD) : W2 (F := Ideal) m ρ c (Proc.devRef .tc main_arg1) = m ((c : Thread nD τ).loc main_arg1) :=
  (W2_of_ne m ρ c main_arg1 (by decide)).trans (at1_1 m ρ c)
theorem at3_1 (c : Dev nD) : W3 (F := Ideal) m ρ c (Proc.devRef .tc main_arg1) = m ((c : Thread nD τ).loc main_arg1) :=
  (keep1_1 (W2 m ρ c)).trans (at2_1 m ρ c)
theorem at4_1 (c : Dev nD) : W4 (F := Ideal) m ρ c (Proc.devRef .tc main_arg1) = m ((c : Thread nD τ).loc main_arg1) :=
  (W4_of_ne m ρ c main_arg1 (by decide)).trans (at3_1 m ρ c)
theorem at1_2 (c : Dev nD) : W1 (F := Ideal) m ρ c (Proc.devRef .tc main_arg2) = m ((c : Thread nD τ).loc main_arg2) :=
  (keep0_2 (W0 m ρ c)).trans rfl
theorem at2_2 (c : Dev nD) : W2 (F := Ideal) m ρ c (Proc.devRef .tc main_arg2) = m ((c : Thread nD τ).loc main_arg2) :=
  (W2_of_ne m ρ c main_arg2 (by decide)).trans (at1_2 m ρ c)
theorem at3_2 (c : Dev nD) : W3 (F := Ideal) m ρ c (Proc.devRef .tc main_arg2) = m ((c : Thread nD τ).loc main_arg2) :=
  (keep1_2 (W2 m ρ c)).trans (at2_2 m ρ c)
theorem at4_2 (c : Dev nD) : W4 (F := Ideal) m ρ c (Proc.devRef .tc main_arg2) = m ((c : Thread nD τ).loc main_arg2) :=
  (W4_of_ne m ρ c main_arg2 (by decide)).trans (at3_2 m ρ c)
theorem at5_2 (c : Dev nD) : W5 (F := Ideal) m ρ c (Proc.devRef .tc main_arg2) = m ((c : Thread nD τ).loc main_arg2) :=
  (keep2_2 (W4 m ρ c)).trans (at4_2 m ρ c)
theorem at6_2 (c : Dev nD) : W6 (F := Ideal) m ρ c (Proc.devRef .tc main_arg2) = m ((c : Thread nD τ).loc main_arg2) :=
  (W6_of_ne m ρ c main_arg2 (by decide)).trans (at5_2 m ρ c)
theorem at1_3 (c : Dev nD) : W1 (F := Ideal) m ρ c (Proc.devRef .tc main_arg3) = m ((c : Thread nD τ).loc main_arg3) :=
  (keep0_3 (W0 m ρ c)).trans rfl
theorem at2_3 (c : Dev nD) : W2 (F := Ideal) m ρ c (Proc.devRef .tc main_arg3) = m ((c : Thread nD τ).loc main_arg3) :=
  (W2_of_ne m ρ c main_arg3 (by decide)).trans (at1_3 m ρ c)
theorem at3_3 (c : Dev nD) : W3 (F := Ideal) m ρ c (Proc.devRef .tc main_arg3) = m ((c : Thread nD τ).loc main_arg3) :=
  (keep1_3 (W2 m ρ c)).trans (at2_3 m ρ c)
theorem at4_3 (c : Dev nD) : W4 (F := Ideal) m ρ c (Proc.devRef .tc main_arg3) = m ((c : Thread nD τ).loc main_arg3) :=
  (W4_of_ne m ρ c main_arg3 (by decide)).trans (at3_3 m ρ c)
theorem at1_4 (c : Dev nD) : W1 (F := Ideal) m ρ c (Proc.devRef .tc main_arg4) = m ((c : Thread nD τ).loc main_arg4) :=
  (keep0_4 (W0 m ρ c)).trans rfl
theorem at2_4 (c : Dev nD) : W2 (F := Ideal) m ρ c (Proc.devRef .tc main_arg4) = m ((c : Thread nD τ).loc main_arg4) :=
  (W2_of_ne m ρ c main_arg4 (by decide)).trans (at1_4 m ρ c)
theorem at3_4 (c : Dev nD) : W3 (F := Ideal) m ρ c (Proc.devRef .tc main_arg4) = m ((c : Thread nD τ).loc main_arg4) :=
  (keep1_4 (W2 m ρ c)).trans (at2_4 m ρ c)
theorem at1_5 (c : Dev nD) : W1 (F := Ideal) m ρ c (Proc.devRef .tc main_arg5) = m ((c : Thread nD τ).loc main_arg5) :=
  (keep0_5 (W0 m ρ c)).trans rfl
theorem at2_5 (c : Dev nD) : W2 (F := Ideal) m ρ c (Proc.devRef .tc main_arg5) = m ((c : Thread nD τ).loc main_arg5) :=
  (W2_of_ne m ρ c main_arg5 (by decide)).trans (at1_5 m ρ c)
theorem at3_5 (c : Dev nD) : W3 (F := Ideal) m ρ c (Proc.devRef .tc main_arg5) = m ((c : Thread nD τ).loc main_arg5) :=
  (keep1_5 (W2 m ρ c)).trans (at2_5 m ρ c)
theorem at1_6 (c : Dev nD) : W1 (F := Ideal) m ρ c (Proc.devRef .tc main_arg6) = m ((c : Thread nD τ).loc main_arg6) :=
  (keep0_6 (W0 m ρ c)).trans rfl
theorem at2_6 (c : Dev nD) : W2 (F := Ideal) m ρ c (Proc.devRef .tc main_arg6) = m ((c : Thread nD τ).loc main_arg6) :=
  (W2_of_ne m ρ c main_arg6 (by decide)).trans (at1_6 m ρ c)
theorem at3_6 (c : Dev nD) : W3 (F := Ideal) m ρ c (Proc.devRef .tc main_arg6) = m ((c : Thread nD τ).loc main_arg6) :=
  (keep1_6 (W2 m ρ c)).trans (at2_6 m ρ c)
theorem at4_6 (c : Dev nD) : W4 (F := Ideal) m ρ c (Proc.devRef .tc main_arg6) = m ((c : Thread nD τ).loc main_arg6) :=
  (W4_of_ne m ρ c main_arg6 (by decide)).trans (at3_6 m ρ c)
theorem at5_6 (c : Dev nD) : W5 (F := Ideal) m ρ c (Proc.devRef .tc main_arg6) = m ((c : Thread nD τ).loc main_arg6) :=
  (keep2_6 (W4 m ρ c)).trans (at4_6 m ρ c)
theorem at6_6 (c : Dev nD) : W6 (F := Ideal) m ρ c (Proc.devRef .tc main_arg6) = m ((c : Thread nD τ).loc main_arg6) :=
  (W6_of_ne m ρ c main_arg6 (by decide)).trans (at5_6 m ρ c)
theorem at7_6 (c : Dev nD) : W7 (F := Ideal) m ρ c (Proc.devRef .tc main_arg6) = m ((c : Thread nD τ).loc main_arg6) :=
  (keep3_6 (W6 m ρ c)).trans (at6_6 m ρ c)
theorem at1_7 (c : Dev nD) : W1 (F := Ideal) m ρ c (Proc.devRef .tc main_arg7) = m ((c : Thread nD τ).loc main_arg7) :=
  (keep0_7 (W0 m ρ c)).trans rfl
theorem at2_7 (c : Dev nD) : W2 (F := Ideal) m ρ c (Proc.devRef .tc main_arg7) = m ((c : Thread nD τ).loc main_arg7) :=
  (W2_of_ne m ρ c main_arg7 (by decide)).trans (at1_7 m ρ c)
theorem at3_7 (c : Dev nD) : W3 (F := Ideal) m ρ c (Proc.devRef .tc main_arg7) = m ((c : Thread nD τ).loc main_arg7) :=
  (keep1_7 (W2 m ρ c)).trans (at2_7 m ρ c)
theorem at4_7 (c : Dev nD) : W4 (F := Ideal) m ρ c (Proc.devRef .tc main_arg7) = m ((c : Thread nD τ).loc main_arg7) :=
  (W4_of_ne m ρ c main_arg7 (by decide)).trans (at3_7 m ρ c)
theorem at5_7 (c : Dev nD) : W5 (F := Ideal) m ρ c (Proc.devRef .tc main_arg7) = m ((c : Thread nD τ).loc main_arg7) :=
  (keep2_7 (W4 m ρ c)).trans (at4_7 m ρ c)
theorem at6_7 (c : Dev nD) : W6 (F := Ideal) m ρ c (Proc.devRef .tc main_arg7) = m ((c : Thread nD τ).loc main_arg7) :=
  (W6_of_ne m ρ c main_arg7 (by decide)).trans (at5_7 m ρ c)
theorem at7_7 (c : Dev nD) : W7 (F := Ideal) m ρ c (Proc.devRef .tc main_arg7) = m ((c : Thread nD τ).loc main_arg7) :=
  (keep3_7 (W6 m ρ c)).trans (at6_7 m ρ c)

/-! ## The boundaries, walked forward -/

/-- After the first edge weighting: the messages of the input features. -/
theorem messages1 (c : Dev nD) :
    W2 (F := Ideal) m ρ c (Proc.devRef .tc main_v8)
      = Cert.Stages.weighted (Cert.Stages.gathered (m ((c : Thread nD τ).loc main_arg0)) (m ((c : Thread nD τ).loc main_arg1)))
          (Cert.Stages.weightColumn (m ((c : Thread nD τ).loc main_arg3))) := by
  refine (W2_arr m ρ c 2).trans ((Cert.KernelIdeal.Region0.closed (V1 m ρ) c).trans ?_)
  show Cert.Stages.weighted (StableHlo.after hostOps0 (W0 m ρ c) (Proc.devRef .tc main_v6)) (StableHlo.after hostOps0 (W0 m ρ c) (Proc.devRef .tc main_v7)) = _
  rw [rows0, column0]

/-- After the first transform: the hidden features. -/
theorem hidden1 (c : Dev nD) :
    W4 (F := Ideal) m ρ c (Proc.devRef .tc main_v12)
      = Cert.Stages.hidden (Cert.Stages.aggregated (m ((c : Thread nD τ).loc main_arg0)) (m ((c : Thread nD τ).loc main_arg1))
          (m ((c : Thread nD τ).loc main_arg2)) (m ((c : Thread nD τ).loc main_arg3)))
          (m ((c : Thread nD τ).loc main_arg4)) (m ((c : Thread nD τ).loc main_arg5)) := by
  refine (W4_arr m ρ c 3).trans ((Cert.KernelIdeal.Region1.closed (V3 m ρ) c).trans ?_)
  show Cert.Stages.hidden (StableHlo.after hostOps1 (W2 m ρ c) (Proc.devRef .tc main_v11)) (W3 m ρ c (Proc.devRef .tc main_arg4)) (W3 m ρ c (Proc.devRef .tc main_arg5)) = _
  rw [sums1, at2_2, messages1, at3_4, at3_5]
  rfl

/-- After the second edge weighting: the messages of the hidden features. -/
theorem messages2 (c : Dev nD) :
    W6 (F := Ideal) m ρ c (Proc.devRef .tc main_v21)
      = Cert.Stages.weighted (Cert.Stages.gathered (W4 (F := Ideal) m ρ c (Proc.devRef .tc main_v12)) (m ((c : Thread nD τ).loc main_arg1)))
          (Cert.Stages.weightColumn (m ((c : Thread nD τ).loc main_arg3))) := by
  refine (W6_arr m ρ c 2).trans ((Cert.KernelIdeal.Region2.closed (V5 m ρ) c).trans ?_)
  show Cert.Stages.weighted (StableHlo.after hostOps2 (W4 m ρ c) (Proc.devRef .tc main_v19)) (StableHlo.after hostOps2 (W4 m ρ c) (Proc.devRef .tc main_v20)) = _
  rw [rows2, column2, at4_1, at4_3]

/-- THE RESULT: the last boundary read at the result buffer is the network of the eight arguments. -/
theorem result (c : Dev nD) :
    W8 (F := Ideal) m ρ c (Proc.devRef .tc main_v25)
      = Cert.Stages.network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W8_arr m ρ c 3).trans ((Cert.KernelIdeal.Region3.closed (V7 m ρ) c).trans ?_)
  show Cert.Stages.classes (StableHlo.after hostOps3 (W6 m ρ c) (Proc.devRef .tc main_v24)) (W7 m ρ c (Proc.devRef .tc main_arg6)) (W7 m ρ c (Proc.devRef .tc main_arg7)) = _
  rw [sums3, at6_2, messages2, hidden1, at7_6, at7_7]
  rfl

end Cert.KernelIdeal.KernelValue

end
-- ==== Proof.RefValue.lean ====
/-
  The reference's result as the composition of the four stages.

  The reference is a straight line of 56 host operations.  Cut after each scatter and after the relu it is four runs:
  an aggregation of the input features, the first transform, an aggregation of the hidden features, the second transform.
  Each run reads a few buffers and writes its result, leaving the arguments alone; read one after the other they give
  the result buffer as the whole network applied to the eight arguments.
-/
import proofs.«119716_j75917841924646_1_alg».proof.Proof.RefRun
import proofs.«119716_j75917841924646_1_alg».proof.Proof.Stages

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The first aggregation: operations 1–16. -/
abbrev opsA : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v7 (broadcastInDim S1600000x1 ![0] bcast_S1600000_S1600000x1_0 : (⟨S1600000, .f32⟩ : BufTy).Contents (Elt F) → (⟨S1600000x1, .f32⟩ : BufTy).Contents (Elt F)),
    unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg2 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The first transform: operations 17–22. -/
abbrev opsB : List (HloOp τ sig (Elt F)) :=
  [ binary main_v12 main_arg4 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v14 (broadcastInDim S100000x128 ![0, 1] bcast_S1x128_S100000x128_0_1 : (⟨S1x128, .f32⟩ : BufTy).Contents (Elt F) → (⟨S100000x128, .f32⟩ : BufTy).Contents (Elt F)),
    binary main_v13 main_v14 main_v15 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v15) (TRef.of (T := ⟨S100000x128, .f32⟩) main_call0_v0) (TRef.of (T := ⟨S100000x128, .f32⟩) main_v16) maximumf ]

/-- The second aggregation: operations 23–38. -/
abbrev opsC : List (HloOp τ sig (Elt F)) :=
  [ nullary main_c_1 (constantI S_ 32 0#32),
    unary main_c_1 main_v17 (broadcastInDim S1600000 ![] bcast_S_S1600000 : (⟨S_, .i32⟩ : BufTy).Contents (Elt F) → (⟨S1600000, .i32⟩ : BufTy).Contents (Elt F)),
    binary main_arg1 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v19 (broadcastInDim S1600000 ![] bcast_S_S1600000 : (⟨S_, .i32⟩ : BufTy).Contents (Elt F) → (⟨S1600000, .i32⟩ : BufTy).Contents (Elt F)),
    binary main_arg1 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_arg1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v24 (broadcastInDim S1600000x1 ![0] bcast_S1600000_S1600000x1_0 : (⟨S1600000, .f32⟩ : BufTy).Contents (Elt F) → (⟨S1600000x1, .f32⟩ : BufTy).Contents (Elt F)),
    unary main_v24 main_v25 (broadcastInDim S1600000x128 ![0, 1] bcast_S1600000x1_S1600000x128_0_1 : (⟨S1600000x1, .f32⟩ : BufTy).Contents (Elt F) → (⟨S1600000x128, .f32⟩ : BufTy).Contents (Elt F)),
    binary main_v23 main_v25 main_v26 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v27 (broadcastInDim S100000x128 ![] bcast_S_S100000x128 : (⟨S_, .f32⟩ : BufTy).Contents (Elt F) → (⟨S100000x128, .f32⟩ : BufTy).Contents (Elt F)),
    unary main_arg2 main_v28 (broadcastInDim S1600000x1 ![0] bcast_S1600000_S1600000x1_0 : (⟨S1600000, .i32⟩ : BufTy).Contents (Elt F) → (⟨S1600000x1, .i32⟩ : BufTy).Contents (Elt F)),
    ternary main_v27 main_v28 main_v26 main_v29 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The logits of the second transform: operations 39–41. -/
abbrev opsD1 : List (HloOp τ sig (Elt F)) :=
  [ binary main_v29 main_arg6 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg7 main_v31 (broadcastInDim S100000x64 ![0, 1] bcast_S1x64_S100000x64_0_1 : (⟨S1x64, .f32⟩ : BufTy).Contents (Elt F) → (⟨S100000x64, .f32⟩ : BufTy).Contents (Elt F)),
    binary main_v30 main_v31 main_v32 (addf : (⟨S100000x64, .f32⟩ : BufTy).Contents (Elt F) → (⟨S100000x64, .f32⟩ : BufTy).Contents (Elt F) → (⟨S100000x64, .f32⟩ : BufTy).Contents (Elt F)) ]

/-- Each row's maximum: operations 42–43. -/
abbrev opsD2a : List (HloOp τ sig (Elt F)) :=
  [ TRef.nullary (TRef.of (T := ⟨S_, .f32⟩) main_call1_cst) (constant S_ .f32 0xFF800000#32),
    TRef.binary (TRef.of (T := ⟨S100000x64, .f32⟩) main_v32) (TRef.of (T := ⟨S_, .f32⟩) main_call1_cst) (TRef.of (T := ⟨S100000, .f32⟩) main_call1_v0) (fun x v => Host.reduce FloatOps.maximumf x v reducesTo_S100000x64_S100000_d1 h_S_) ]

/-- Each row less its maximum: operations 44–49. -/
abbrev opsD2b : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x64, .f32⟩) main_call1_v4) (broadcastInDim S100000x64 ![0, 1] bcast_S100000x1_S100000x64_0_1),
    TRef.binary (TRef.of (T := ⟨S100000x64, .f32⟩) main_v32) (TRef.of (T := ⟨S100000x64, .f32⟩) main_call1_v4) (TRef.of (T := ⟨S100000x64, .f32⟩) main_call1_v5) subf ]

/-- Each row less the logarithm of its sum of exponentials: operations 50–56. -/
abbrev opsD3 : List (HloOp τ sig (Elt F)) :=
  [ TRef.unary (TRef.of (T := ⟨S100000x64, .f32⟩) main_call1_v5) (TRef.of (T := ⟨S100000x64, .f32⟩) main_call1_v6) Host.exp,
    TRef.nullary (TRef.of (T := ⟨S_, .f32⟩) main_call1_cst_1) (constant S_ .f32 0x00000000#32),
    TRef.binary (TRef.of (T := ⟨S100000x64, .f32⟩) main_call1_v6) (TRef.of (T := ⟨S_, .f32⟩) main_call1_cst_1) (TRef.of (T := ⟨S100000, .f32⟩) main_call1_v7) (fun x v => Host.reduceAdd x v reducesTo_S100000x64_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x64, .f32⟩) main_call1_v10) (broadcastInDim S100000x64 ![0, 1] bcast_S100000x1_S100000x64_0_1),
    TRef.binary (TRef.of (T := ⟨S100000x64, .f32⟩) main_call1_v5) (TRef.of (T := ⟨S100000x64, .f32⟩) main_call1_v10) (TRef.of (T := ⟨S100000x64, .f32⟩) main_v33) subf ]

/-- Running two lists of operations one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
theorem ops_split : (ops (F := F)) = opsA ++ (opsB ++ (opsC ++ (opsD1 ++ (opsD2a ++ (opsD2b ++ opsD3))))) := rfl

/-! ## Each run leaves the arguments it does not write -/

theorem keepA_1 (V : Valuation τ sig (Elt Ideal)) : after (opsA (F := Ideal)) V (Proc.devRef .tc main_arg1) = V (Proc.devRef .tc main_arg1) := by
  after_results_simp
theorem keepA_2 (V : Valuation τ sig (Elt Ideal)) : after (opsA (F := Ideal)) V (Proc.devRef .tc main_arg2) = V (Proc.devRef .tc main_arg2) := by
  after_results_simp
theorem keepA_3 (V : Valuation τ sig (Elt Ideal)) : after (opsA (F := Ideal)) V (Proc.devRef .tc main_arg3) = V (Proc.devRef .tc main_arg3) := by
  after_results_simp
theorem keepA_4 (V : Valuation τ sig (Elt Ideal)) : after (opsA (F := Ideal)) V (Proc.devRef .tc main_arg4) = V (Proc.devRef .tc main_arg4) := by
  after_results_simp
theorem keepA_5 (V : Valuation τ sig (Elt Ideal)) : after (opsA (F := Ideal)) V (Proc.devRef .tc main_arg5) = V (Proc.devRef .tc main_arg5) := by
  after_results_simp
theorem keepA_6 (V : Valuation τ sig (Elt Ideal)) : after (opsA (F := Ideal)) V (Proc.devRef .tc main_arg6) = V (Proc.devRef .tc main_arg6) := by
  after_results_simp
theorem keepA_7 (V : Valuation τ sig (Elt Ideal)) : after (opsA (F := Ideal)) V (Proc.devRef .tc main_arg7) = V (Proc.devRef .tc main_arg7) := by
  after_results_simp
theorem keepB_1 (V : Valuation τ sig (Elt Ideal)) : after (opsB (F := Ideal)) V (Proc.devRef .tc main_arg1) = V (Proc.devRef .tc main_arg1) := by
  after_results_simp
theorem keepB_2 (V : Valuation τ sig (Elt Ideal)) : after (opsB (F := Ideal)) V (Proc.devRef .tc main_arg2) = V (Proc.devRef .tc main_arg2) := by
  after_results_simp
theorem keepB_3 (V : Valuation τ sig (Elt Ideal)) : after (opsB (F := Ideal)) V (Proc.devRef .tc main_arg3) = V (Proc.devRef .tc main_arg3) := by
  after_results_simp
theorem keepB_6 (V : Valuation τ sig (Elt Ideal)) : after (opsB (F := Ideal)) V (Proc.devRef .tc main_arg6) = V (Proc.devRef .tc main_arg6) := by
  after_results_simp
theorem keepB_7 (V : Valuation τ sig (Elt Ideal)) : after (opsB (F := Ideal)) V (Proc.devRef .tc main_arg7) = V (Proc.devRef .tc main_arg7) := by
  after_results_simp
theorem keepC_6 (V : Valuation τ sig (Elt Ideal)) : after (opsC (F := Ideal)) V (Proc.devRef .tc main_arg6) = V (Proc.devRef .tc main_arg6) := by
  after_results_simp
theorem keepC_7 (V : Valuation τ sig (Elt Ideal)) : after (opsC (F := Ideal)) V (Proc.devRef .tc main_arg7) = V (Proc.devRef .tc main_arg7) := by
  after_results_simp

/-! ## The whole line leaves every argument -/

theorem kept_0 (V : Valuation τ sig (Elt Ideal)) : after (ops (F := Ideal)) V (Proc.devRef .tc main_arg0) = V (Proc.devRef .tc main_arg0) := by
  after_results_simp
theorem kept_1 (V : Valuation τ sig (Elt Ideal)) : after (ops (F := Ideal)) V (Proc.devRef .tc main_arg1) = V (Proc.devRef .tc main_arg1) := by
  after_results_simp
theorem kept_2 (V : Valuation τ sig (Elt Ideal)) : after (ops (F := Ideal)) V (Proc.devRef .tc main_arg2) = V (Proc.devRef .tc main_arg2) := by
  after_results_simp
theorem kept_3 (V : Valuation τ sig (Elt Ideal)) : after (ops (F := Ideal)) V (Proc.devRef .tc main_arg3) = V (Proc.devRef .tc main_arg3) := by
  after_results_simp
theorem kept_4 (V : Valuation τ sig (Elt Ideal)) : after (ops (F := Ideal)) V (Proc.devRef .tc main_arg4) = V (Proc.devRef .tc main_arg4) := by
  after_results_simp
theorem kept_5 (V : Valuation τ sig (Elt Ideal)) : after (ops (F := Ideal)) V (Proc.devRef .tc main_arg5) = V (Proc.devRef .tc main_arg5) := by
  after_results_simp
theorem kept_6 (V : Valuation τ sig (Elt Ideal)) : after (ops (F := Ideal)) V (Proc.devRef .tc main_arg6) = V (Proc.devRef .tc main_arg6) := by
  after_results_simp
theorem kept_7 (V : Valuation τ sig (Elt Ideal)) : after (ops (F := Ideal)) V (Proc.devRef .tc main_arg7) = V (Proc.devRef .tc main_arg7) := by
  after_results_simp

/-! ## Each run's result -/

theorem resultA (V : Valuation τ sig (Elt Ideal)) :
    after (opsA (F := Ideal)) V (Proc.devRef .tc main_v12)
      = Cert.Stages.aggregated (V (Proc.devRef .tc main_arg0)) (V (Proc.devRef .tc main_arg1)) (V (Proc.devRef .tc main_arg2)) (V (Proc.devRef .tc main_arg3)) := by
  after_results_simp
  rfl

theorem resultB (V : Valuation τ sig (Elt Ideal)) :
    after (opsB (F := Ideal)) V (Proc.devRef .tc main_v16)
      = Cert.Stages.hidden (V (Proc.devRef .tc main_v12)) (V (Proc.devRef .tc main_arg4)) (V (Proc.devRef .tc main_arg5)) := by
  after_results_simp
  rfl

theorem resultC (V : Valuation τ sig (Elt Ideal)) :
    after (opsC (F := Ideal)) V (Proc.devRef .tc main_v29)
      = Cert.Stages.aggregated (V (Proc.devRef .tc main_v16)) (V (Proc.devRef .tc main_arg1)) (V (Proc.devRef .tc main_arg2)) (V (Proc.devRef .tc main_arg3)) := by
  after_results_simp
  rfl

theorem resultD1 (V : Valuation τ sig (Elt Ideal)) :
    after (opsD1 (F := Ideal)) V (Proc.devRef .tc main_v32)
      = Cert.Stages.logits (V (Proc.devRef .tc main_v29)) (V (Proc.devRef .tc main_arg6)) (V (Proc.devRef .tc main_arg7)) := by
  after_results_simp
  rfl

theorem keepD2a (V : Valuation τ sig (Elt Ideal)) : after (opsD2a (F := Ideal)) V (Proc.devRef .tc main_v32) = V (Proc.devRef .tc main_v32) := by
  after_results_simp

/-- The one reduction by maximum.  Its operand and initial value pass through a change of type that is the identity. -/
theorem resultD2a (V : Valuation τ sig (Elt Ideal)) :
    after (opsD2a (F := Ideal)) V (Proc.devRef .tc main_call1_v0) = Cert.Stages.rowMax (V (Proc.devRef .tc main_v32)) := by
  unfold Cert.Stages.rowMax
  after_results_simp
  dsimp only [TRef.toBuf, TRef.ofBuf]
  erw [cast_eq, cast_eq, cast_eq, cast_eq]

theorem resultD2b (V : Valuation τ sig (Elt Ideal)) :
    after (opsD2b (F := Ideal)) V (Proc.devRef .tc main_call1_v5)
      = Cert.Stages.lessPerRow (V (Proc.devRef .tc main_v32)) (V (Proc.devRef .tc main_call1_v0)) := by
  after_results_simp
  rfl

theorem resultD3 (V : Valuation τ sig (Elt Ideal)) :
    after (opsD3 (F := Ideal)) V (Proc.devRef .tc main_v33) = Cert.Stages.normalized (V (Proc.devRef .tc main_call1_v5)) := by
  after_results_simp
  rfl

/-- The result buffer after all 56 operations is the network of the eight arguments. -/
theorem fold_result (V : Valuation τ sig (Elt Ideal)) :
    after (ops (F := Ideal)) V (Proc.devRef .tc main_v33)
      = Cert.Stages.network (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  rw [ops_split, after_app, after_app, after_app, after_app, after_app, after_app, resultD3, resultD2b, resultD2a, keepD2a, resultD1, resultC, keepC_6, keepC_7, resultB,
    keepB_1, keepB_2, keepB_3, keepB_6, keepB_7, resultA, keepA_1, keepA_2, keepA_3, keepA_4, keepA_5, keepA_6, keepA_7]
  rfl

end Cert.ReferenceIdeal.RefValue

end
-- ==== Proof.lean ====
/-
  A two-layer graph convolution — twice: gather the source rows of 1.6 million edges, scale each by its edge weight, sum
  into the destination nodes, then a dense transform (relu of a·W0 + b0, and the row-wise log-softmax of a·W1 + b1) —
  computed by a tiled program (the edge weighting and the two transforms as pipelined regions, the gathers and
  scatter-adds on the host between them) and by a straight line of host operations.

  Over the extended reals both compute one function of the eight arguments, the composition of four whole-array stages
  (Stages.lean).  The reference is that composition by definition of the stages (RefValue.lean).  Each region of the
  tiled program ends with its result array at its stage applied to the arrays it entered with: a block of the result
  depends on the same block of rows of its operands and on the whole weight matrix and bias, a product of matrices is the
  same sum of products whichever way its rows are tiled, and the blocks cover every row (Region0.lean … Region3.lean);
  the host operations between the regions are the reference's own, and nothing writes an argument (KernelValue.lean).
  No law that needs finite values is used: the two sides are the same expression entry by entry, so the precondition is
  never opened.  The three frame claims are the generated frames and the reference's run; the idealization rewrote nothing.
-/
import proofs.«119716_j75917841924646_1_alg».proof.Defs
import proofs.«119716_j75917841924646_1_alg».proof.Proof.Gen.Kernel
import proofs.«119716_j75917841924646_1_alg».proof.Proof.Gen.Kernel.Frame
import proofs.«119716_j75917841924646_1_alg».proof.Proof.Gen.KernelIdeal
import proofs.«119716_j75917841924646_1_alg».proof.Proof.Gen.KernelIdeal.Frame
import proofs.«119716_j75917841924646_1_alg».proof.Proof.Gen.ReferenceIdeal
import proofs.«119716_j75917841924646_1_alg».proof.Proof.Gen.Pre_finite_inputs
import proofs.«119716_j75917841924646_1_alg».proof.Proof.KernelRun
import proofs.«119716_j75917841924646_1_alg».proof.Proof.KernelValue
import proofs.«119716_j75917841924646_1_alg».proof.Proof.RefRun
import proofs.«119716_j75917841924646_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and none of its 56 operations writes an argument. -/
theorem frame_referenceIdeal : Cert.frame_ReferenceIdeal := fun m ρ _ =>
  (θ_run Cert.ReferenceIdeal.defs _ _).mono
    (fun r h c => ⟨(h c Cert.ReferenceIdeal.main_arg0).trans (Cert.ReferenceIdeal.RefValue.kept_0 _),
      (h c Cert.ReferenceIdeal.main_arg1).trans (Cert.ReferenceIdeal.RefValue.kept_1 _),
      (h c Cert.ReferenceIdeal.main_arg2).trans (Cert.ReferenceIdeal.RefValue.kept_2 _),
      (h c Cert.ReferenceIdeal.main_arg3).trans (Cert.ReferenceIdeal.RefValue.kept_3 _),
      (h c Cert.ReferenceIdeal.main_arg4).trans (Cert.ReferenceIdeal.RefValue.kept_4 _),
      (h c Cert.ReferenceIdeal.main_arg5).trans (Cert.ReferenceIdeal.RefValue.kept_5 _),
      (h c Cert.ReferenceIdeal.main_arg6).trans (Cert.ReferenceIdeal.RefValue.kept_6 _),
      (h c Cert.ReferenceIdeal.main_arg7).trans (Cert.ReferenceIdeal.RefValue.kept_7 _)⟩)
    (Cert.ReferenceIdeal.ValueP.run_fold (F := Ideal) m ρ)

/-- The idealization rewrote no operation. -/
theorem preserves : Cert.preserves_Kernel_KernelIdeal := trivial

/-- From memories that agree on the arguments both programs end with the result buffer at the network of the arguments. -/
theorem algebraic : Cert.algebraic_KernelIdeal_ReferenceIdeal := by
  intro m ρ m' ρ' _ hagree
  refine ⟨fun c => Cert.Stages.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.RunValue.run_value (F := Ideal) m ρ)
  · refine (θ_run Cert.ReferenceIdeal.defs _ _).mono (fun r h c => ⟨?_,
      (h c Cert.ReferenceIdeal.main_arg0).trans (Cert.ReferenceIdeal.RefValue.kept_0 _),
      (h c Cert.ReferenceIdeal.main_arg1).trans (Cert.ReferenceIdeal.RefValue.kept_1 _),
      (h c Cert.ReferenceIdeal.main_arg2).trans (Cert.ReferenceIdeal.RefValue.kept_2 _),
      (h c Cert.ReferenceIdeal.main_arg3).trans (Cert.ReferenceIdeal.RefValue.kept_3 _),
      (h c Cert.ReferenceIdeal.main_arg4).trans (Cert.ReferenceIdeal.RefValue.kept_4 _),
      (h c Cert.ReferenceIdeal.main_arg5).trans (Cert.ReferenceIdeal.RefValue.kept_5 _),
      (h c Cert.ReferenceIdeal.main_arg6).trans (Cert.ReferenceIdeal.RefValue.kept_6 _),
      (h c Cert.ReferenceIdeal.main_arg7).trans (Cert.ReferenceIdeal.RefValue.kept_7 _)⟩)
      (Cert.ReferenceIdeal.ValueP.run_fold (F := Ideal) m' ρ')
    refine (h c Cert.ReferenceIdeal.main_v33).trans ((Cert.ReferenceIdeal.RefValue.fold_result _).trans ?_)
    show Cert.Stages.network (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
